-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S128x2 : Shape := ⟨2, ![128, 2]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S128x2 : S_.BroadcastsInDim S128x2 (![] : Fin 0 → Fin S128x2.rank)
  reducesTo_S128x2_S_d0_1 : S128x2.ReducesTo [0, 1] S_

variable [Facts]

def fn_part2 {F : FTy → Type} [FloatOps F] (main_arg7 : FVec F S64x2 .f32) (main_v33 : IVec S_ 1) : IVec S_ 1 :=
  let main_v34 : FVec F S64x2 .f32 := Host.absf main_arg7
  let main_cst_12 : FVec F S_ .f32 := constant S_ .f32 0x7F800000#32
  let main_v35 : FVec F S64x2 .f32 := broadcastInDim S64x2 ![] bcast_S_S64x2 main_cst_12
  let main_v36 : IVec S64x2 1 := cmpf .olt main_v34 main_v35
  let main_c_13 : IVec S_ 1 := constantI S_ 1 1#1
  let main_v37 : IVec S_ 1 := (fun x v => Host.reduce IntOp.andi x v reducesTo_S64x2_S_d0_1 h_S_) main_v36 main_c_13
  let main_v38 : IVec S_ 1 := andi main_v33 main_v37
  main_v38

def fn_part1 {F : FTy → Type} [FloatOps F] (main_arg4 : FVec F S64 .f32) (main_arg5 : FVec F S64x2 .f32) (main_arg6 : FVec F S128x2 .f32) (main_arg7 : FVec F S64x2 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x2 .f32 := Host.absf main_arg5
  let main_cst_8 : FVec F S_ .f32 := constant S_ .f32 0x7F800000#32
  let main_v25 : FVec F S64x2 .f32 := broadcastInDim S64x2 ![] bcast_S_S64x2 main_cst_8
  let main_v26 : IVec S64x2 1 := cmpf .olt main_v24 main_v25
  let main_c_9 : IVec S_ 1 := constantI S_ 1 1#1
  let main_v27 : IVec S_ 1 := (fun x v => Host.reduce IntOp.andi x v reducesTo_S64x2_S_d0_1 h_S_) main_v26 main_c_9
  let main_v28 : IVec S_ 1 := andi main_v23 main_v27
  let main_v29 : FVec F S128x2 .f32 := Host.absf main_arg6
  let main_cst_10 : FVec F S_ .f32 := constant S_ .f32 0x7F800000#32
  let main_v30 : FVec F S128x2 .f32 := broadcastInDim S128x2 ![] bcast_S_S128x2 main_cst_10
  let main_v31 : IVec S128x2 1 := cmpf .olt main_v29 main_v30
  let main_c_11 : IVec S_ 1 := constantI S_ 1 1#1
  let main_v32 : IVec S_ 1 := (fun x v => Host.reduce IntOp.andi x v reducesTo_S128x2_S_d0_1 h_S_) main_v31 main_c_11
  let main_v33 : IVec S_ 1 := andi main_v28 main_v32
  fn_part2 (F := F) main_arg7 main_v33

def fn {F : FTy → Type} [FloatOps F] (main_arg0 : FVec F S1048576x64 .f32) (main_arg1 : FVec F S64x128 .f32) (main_arg2 : FVec F S128 .f32) (main_arg3 : FVec F S128x64 .f32) (main_arg4 : FVec F S64 .f32) (main_arg5 : FVec F S64x2 .f32) (main_arg6 : FVec F S128x2 .f32) (main_arg7 : FVec F S64x2 .f32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_v13 main_v16
-- ==== Kernel.lean ====
abbrev S1048576x64 : Shape := ⟨2, ![1048576, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S128x2 : Shape := ⟨2, ![128, 2]⟩
abbrev S64x1x2 : Shape := ⟨3, ![64, 1, 2]⟩
abbrev S1x128x2 : Shape := ⟨3, ![1, 128, 2]⟩
abbrev S64x128x2 : Shape := ⟨3, ![64, 128, 2]⟩
abbrev S_ : Shape := ⟨0, ![]⟩
abbrev S128x1x2 : Shape := ⟨3, ![128, 1, 2]⟩
abbrev S1x64x2 : Shape := ⟨3, ![1, 64, 2]⟩
abbrev S128x64x2 : Shape := ⟨3, ![128, 64, 2]⟩
abbrev S524288x128 : Shape := ⟨2, ![524288, 128]⟩
abbrev S128x256 : Shape := ⟨2, ![128, 256]⟩
abbrev S1 : Shape := ⟨1, ![1]⟩
abbrev S2 : Shape := ⟨1, ![2]⟩
abbrev S256 : Shape := ⟨1, ![256]⟩
abbrev S256x128 : Shape := ⟨2, ![256, 128]⟩
abbrev S8192x128 : Shape := ⟨2, ![8192, 128]⟩
abbrev S8192x256 : Shape := ⟨2, ![8192, 256]⟩
abbrev S1x256 : Shape := ⟨2, ![1, 256]⟩
abbrev S1x128 : Shape := ⟨2, ![1, 128]⟩

abbrev nBuf : Space → Nat
  | .hbm => 119
  | .vmem => 8
  | .smem => 0
  | _ => 0

abbrev bufTy : (tb : Table) → Fin (tcTables nBuf tb) → BufTy
  | .hbm, ⟨0, _⟩ => ⟨S1048576x64, .f32⟩
  | .hbm, ⟨1, _⟩ => ⟨S64x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S64x2, .f32⟩
  | .hbm, ⟨6, _⟩ => ⟨S128x2, .f32⟩
  | .hbm, ⟨7, _⟩ => ⟨S64x2, .f32⟩
  | .hbm, ⟨8, _⟩ => ⟨S64x1x2, .f32⟩
  | .hbm, ⟨9, _⟩ => ⟨S1x128x2, .f32⟩
  | .hbm, ⟨10, _⟩ => ⟨S64x128x2, .f32⟩
  | .hbm, ⟨11, _⟩ => ⟨S64x128x2, .f32⟩
  | .hbm, ⟨12, _⟩ => ⟨S64x128x2, .f32⟩
  | .hbm, ⟨13, _⟩ => ⟨S64x128x2, .f32⟩
  | .hbm, ⟨14, _⟩ => ⟨S_, .f32⟩
  | .hbm, ⟨15, _⟩ => ⟨S64x128, .f32⟩
  | .hbm, ⟨16, _⟩ => ⟨S128x1x2, .f32⟩
  | .hbm, ⟨17, _⟩ => ⟨S1x64x2, .f32⟩
  | .hbm, ⟨18, _⟩ => ⟨S128x64x2, .f32⟩
  | .hbm, ⟨19, _⟩ => ⟨S128x64x2, .f32⟩
  | .hbm, ⟨20, _⟩ => ⟨S128x64x2, .f32⟩
  | .hbm, ⟨21, _⟩ => ⟨S128x64x2, .f32⟩
  | .hbm, ⟨22, _⟩ => ⟨S_, .f32⟩
  | .hbm, ⟨23, _⟩ => ⟨S128x64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S64x128, .f32⟩
  | .hbm, ⟨28, _⟩ => ⟨S64x128, .f32⟩
  | .hbm, ⟨29, _⟩ => ⟨S_, .f32⟩
  | .hbm, ⟨30, _⟩ => ⟨S64x128, .f32⟩
  | .hbm, ⟨31, _⟩ => ⟨S64x128, .f32⟩
  | .hbm, ⟨32, _⟩ => ⟨S_, .f32⟩
  | .hbm, ⟨33, _⟩ => ⟨S64x128, .f32⟩
  | .hbm, ⟨34, _⟩ => ⟨S64x128, .f32⟩
  | .hbm, ⟨35, _⟩ => ⟨S_, .f32⟩
  | .hbm, ⟨36, _⟩ => ⟨S64x128, .f32⟩
  | .hbm, ⟨37, _⟩ => ⟨S64x128, .f32⟩
  | .hbm, ⟨38, _⟩ => ⟨S_, .f32⟩
  | .hbm, ⟨39, _⟩ => ⟨S64x128, .f32⟩
  | .hbm, ⟨40, _⟩ => ⟨S64x128, .f32⟩
  | .hbm, ⟨41, _⟩ => ⟨S_, .f32⟩
  | .hbm, ⟨42, _⟩ => ⟨S64x128, .f32⟩
  | .hbm, ⟨43, _⟩ => ⟨S64x128, .f32⟩
  | .hbm, ⟨44, _⟩ => ⟨S_, .f32⟩
  | .hbm, ⟨45, _⟩ => ⟨S64x128, .f32⟩
  | .hbm, ⟨46, _⟩ => ⟨S64x128, .f32⟩
  | .hbm, ⟨47, _⟩ => ⟨S64x128, .f32⟩
  | .hbm, ⟨48, _⟩ => ⟨S_, .f32⟩
  | .hbm, ⟨49, _⟩ => ⟨S64x128, .f32⟩
  | .hbm, ⟨50, _⟩ => ⟨S64x128, .f32⟩
  | .hbm, ⟨51, _⟩ => ⟨S_, .f32⟩
  | .hbm, ⟨52, _⟩ => ⟨S64x128, .f32⟩
  | .hbm, ⟨53, _⟩ => ⟨S64x128, .f32⟩
  | .hbm, ⟨54, _⟩ => ⟨S64x128, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S128x64, .f32⟩
  | .hbm, ⟨59, _⟩ => ⟨S128x64, .f32⟩
  | .hbm, ⟨60, _⟩ => ⟨S_, .f32⟩
  | .hbm, ⟨61, _⟩ => ⟨S128x64, .f32⟩
  | .hbm, ⟨62, _⟩ => ⟨S128x64, .f32⟩
  | .hbm, ⟨63, _⟩ => ⟨S_, .f32⟩
  | .hbm, ⟨64, _⟩ => ⟨S128x64, .f32⟩
  | .hbm, ⟨65, _⟩ => ⟨S128x64, .f32⟩
  | .hbm, ⟨66, _⟩ => ⟨S_, .f32⟩
  | .hbm, ⟨67, _⟩ => ⟨S128x64, .f32⟩
  | .hbm, ⟨68, _⟩ => ⟨S128x64, .f32⟩
  | .hbm, ⟨69, _⟩ => ⟨S_, .f32⟩
  | .hbm, ⟨70, _⟩ => ⟨S128x64, .f32⟩
  | .hbm, ⟨71, _⟩ => ⟨S128x64, .f32⟩
  | .hbm, ⟨72, _⟩ => ⟨S_, .f32⟩
  | .hbm, ⟨73, _⟩ => ⟨S128x64, .f32⟩
  | .hbm, ⟨74, _⟩ => ⟨S128x64, .f32⟩
  | .hbm, ⟨75, _⟩ => ⟨S_, .f32⟩
  | .hbm, ⟨76, _⟩ => ⟨S128x64, .f32⟩
  | .hbm, ⟨77, _⟩ => ⟨S128x64, .f32⟩
  | .hbm, ⟨78, _⟩ => ⟨S128x64, .f32⟩
  | .hbm, ⟨79, _⟩ => ⟨S_, .f32⟩
  | .hbm, ⟨80, _⟩ => ⟨S128x64, .f32⟩
  | .hbm, ⟨81, _⟩ => ⟨S128x64, .f32⟩
  | .hbm, ⟨82, _⟩ => ⟨S_, .f32⟩
  | .hbm, ⟨83, _⟩ => ⟨S128x64, .f32⟩
  | .hbm, ⟨84, _⟩ => ⟨S128x64, .f32⟩
  | .hbm, ⟨85, _⟩ => ⟨S128x64, .f32⟩
  | .hbm, ⟨86, _⟩ => ⟨S524288x128, .f32⟩
  | .hbm, ⟨87, _⟩ => ⟨S_, .f32⟩
  | .hbm, ⟨88, _⟩ => ⟨S128x256, .f32⟩
  | .hbm, ⟨89, _⟩ => ⟨S_, .i32⟩
  | .hbm, ⟨90, _⟩ => ⟨S1, .i32⟩
  | .hbm, ⟨91, _⟩ => ⟨S_, .i32⟩
  | .hbm, ⟨92, _⟩ => ⟨S1, .i32⟩
  | .hbm, ⟨93, _⟩ => ⟨S2, .i32⟩
  | .hbm, ⟨94, _⟩ => ⟨S128x256, .f32⟩
  | .hbm, ⟨95, _⟩ => ⟨S_, .i32⟩
  | .hbm, ⟨96, _⟩ => ⟨S1, .i32⟩
  | .hbm, ⟨97, _⟩ => ⟨S_, .i32⟩
  | .hbm, ⟨98, _⟩ => ⟨S1, .i32⟩
  | .hbm, ⟨99, _⟩ => ⟨S2, .i32⟩
  | .hbm, ⟨100, _⟩ => ⟨S128x256, .f32⟩
  | .hbm, ⟨101, _⟩ => ⟨S256, .f32⟩
  | .hbm, ⟨102, _⟩ => ⟨S_, .f32⟩
  | .hbm, ⟨103, _⟩ => ⟨S256x128, .f32⟩
  | .hbm, ⟨104, _⟩ => ⟨S_, .i32⟩
  | .hbm, ⟨105, _⟩ => ⟨S1, .i32⟩
  | .hbm, ⟨106, _⟩ => ⟨S_, .i32⟩
  | .hbm, ⟨107, _⟩ => ⟨S1, .i32⟩
  | .hbm, ⟨108, _⟩ => ⟨S2, .i32⟩
  | .hbm, ⟨109, _⟩ => ⟨S256x128, .f32⟩
  | .hbm, ⟨110, _⟩ => ⟨S_, .i32⟩
  | .hbm, ⟨111, _⟩ => ⟨S1, .i32⟩
  | .hbm, ⟨112, _⟩ => ⟨S_, .i32⟩
  | .hbm, ⟨113, _⟩ => ⟨S1, .i32⟩
  | .hbm, ⟨114, _⟩ => ⟨S2, .i32⟩
  | .hbm, ⟨115, _⟩ => ⟨S256x128, .f32⟩
  | .hbm, ⟨116, _⟩ => ⟨S128, .f32⟩
  | .hbm, ⟨117, _⟩ => ⟨S524288x128, .f32⟩
  | .hbm, ⟨118, _⟩ => ⟨S1048576x64, .f32⟩
  | .local _ .vmem, ⟨0, _⟩ => ⟨S8192x128, .f32⟩
  | .local _ .vmem, ⟨1, _⟩ => ⟨S8192x128, .f32⟩
  | .local _ .vmem, ⟨2, _⟩ => ⟨S128x256, .f32⟩
  | .local _ .vmem, ⟨3, _⟩ => ⟨S256, .f32⟩
  | .local _ .vmem, ⟨4, _⟩ => ⟨S256x128, .f32⟩
  | .local _ .vmem, ⟨5, _⟩ => ⟨S128, .f32⟩
  | .local _ .vmem, ⟨6, _⟩ => ⟨S8192x128, .f32⟩
  | .local _ .vmem, ⟨7, _⟩ => ⟨S8192x128, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_cst_1 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_cst_5 : Ref sig .tc := ⟨.hbm, 38, rfl⟩
abbrev main_v19 : Ref sig .tc := ⟨.hbm, 39, rfl⟩
abbrev main_v20 : Ref sig .tc := ⟨.hbm, 40, rfl⟩
abbrev main_cst_6 : Ref sig .tc := ⟨.hbm, 41, rfl⟩
abbrev main_v21 : Ref sig .tc := ⟨.hbm, 42, rfl⟩
abbrev main_v22 : Ref sig .tc := ⟨.hbm, 43, rfl⟩
abbrev main_cst_7 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_8 : Ref sig .tc := ⟨.hbm, 48, rfl⟩
abbrev main_v26 : Ref sig .tc := ⟨.hbm, 49, rfl⟩
abbrev main_v27 : Ref sig .tc := ⟨.hbm, 50, rfl⟩
abbrev main_cst_9 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_10 : Ref sig .tc := ⟨.hbm, 55, rfl⟩
abbrev main_cst_11 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_v31 : Ref sig .tc := ⟨.hbm, 62, rfl⟩
abbrev main_cst_12 : Ref sig .tc := ⟨.hbm, 63, rfl⟩
abbrev main_v32 : Ref sig .tc := ⟨.hbm, 64, rfl⟩
abbrev main_v33 : Ref sig .tc := ⟨.hbm, 65, rfl⟩
abbrev main_cst_13 : Ref sig .tc := ⟨.hbm, 66, rfl⟩
abbrev main_v34 : Ref sig .tc := ⟨.hbm, 67, rfl⟩
abbrev main_v35 : Ref sig .tc := ⟨.hbm, 68, rfl⟩
abbrev main_cst_14 : Ref sig .tc := ⟨.hbm, 69, rfl⟩
abbrev main_v36 : Ref sig .tc := ⟨.hbm, 70, rfl⟩
abbrev main_v37 : Ref sig .tc := ⟨.hbm, 71, rfl⟩
abbrev main_cst_15 : Ref sig .tc := ⟨.hbm, 72, rfl⟩
abbrev main_v38 : Ref sig .tc := ⟨.hbm, 73, rfl⟩
abbrev main_v39 : Ref sig .tc := ⟨.hbm, 74, rfl⟩
abbrev main_cst_16 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_17 : Ref sig .tc := ⟨.hbm, 79, rfl⟩
abbrev main_v43 : Ref sig .tc := ⟨.hbm, 80, rfl⟩
abbrev main_v44 : Ref sig .tc := ⟨.hbm, 81, rfl⟩
abbrev main_cst_18 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_19 : Ref sig .tc := ⟨.hbm, 87, rfl⟩
abbrev main_v49 : Ref sig .tc := ⟨.hbm, 88, rfl⟩
abbrev main_c : Ref sig .tc := ⟨.hbm, 89, rfl⟩
abbrev main_v50 : Ref sig .tc := ⟨.hbm, 90, rfl⟩
abbrev main_c_20 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_c_21 : Ref sig .tc := ⟨.hbm, 95, rfl⟩
abbrev main_v54 : Ref sig .tc := ⟨.hbm, 96, rfl⟩
abbrev main_c_22 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_cst_23 : Ref sig .tc := ⟨.hbm, 102, rfl⟩
abbrev main_v59 : Ref sig .tc := ⟨.hbm, 103, rfl⟩
abbrev main_c_24 : Ref sig .tc := ⟨.hbm, 104, rfl⟩
abbrev main_v60 : Ref sig .tc := ⟨.hbm, 105, rfl⟩
abbrev main_c_25 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_c_26 : Ref sig .tc := ⟨.hbm, 110, rfl⟩
abbrev main_v64 : Ref sig .tc := ⟨.hbm, 111, rfl⟩
abbrev main_c_27 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S64x2_S64x1x2_0_2 : S64x2.BroadcastsInDim S64x1x2 (![0, 2] : Fin 2 → Fin S64x1x2.rank)
  bcast_S128x2_S1x128x2_1_2 : S128x2.BroadcastsInDim S1x128x2 (![1, 2] : Fin 2 → Fin S1x128x2.rank)
  bcast_S64x1x2_S64x128x2_0_1_2 : S64x1x2.BroadcastsInDim S64x128x2 (![0, 1, 2] : Fin 3 → Fin S64x128x2.rank)
  bcast_S1x128x2_S64x128x2_0_1_2 : S1x128x2.BroadcastsInDim S64x128x2 (![0, 1, 2] : Fin 3 → Fin S64x128x2.rank)
  reducesTo_S64x128x2_S64x128_d2 : S64x128x2.ReducesTo [2] S64x128
  h_S_ : 0 < S_.numel
  bcast_S128x2_S128x1x2_0_2 : S128x2.BroadcastsInDim S128x1x2 (![0, 2] : Fin 2 → Fin S128x1x2.rank)
  bcast_S64x2_S1x64x2_1_2 : S64x2.BroadcastsInDim S1x64x2 (![1, 2] : Fin 2 → Fin S1x64x2.rank)
  bcast_S128x1x2_S128x64x2_0_1_2 : S128x1x2.BroadcastsInDim S128x64x2 (![0, 1, 2] : Fin 3 → Fin S128x64x2.rank)
  bcast_S1x64x2_S128x64x2_0_1_2 : S1x64x2.BroadcastsInDim S128x64x2 (![0, 1, 2] : Fin 3 → Fin S128x64x2.rank)
  reducesTo_S128x64x2_S128x64_d2 : S128x64x2.ReducesTo [2] S128x64
  bcast_S_S64x128 : S_.BroadcastsInDim S64x128 (![] : Fin 0 → Fin S64x128.rank)
  bcast_S_S128x64 : S_.BroadcastsInDim S128x64 (![] : Fin 0 → Fin S128x64.rank)
  shapeCasts_S1048576x64_S524288x128 : S1048576x64.ShapeCasts S524288x128
  bcast_S_S128x256 : S_.BroadcastsInDim S128x256 (![] : Fin 0 → Fin S128x256.rank)
  bcast_S_S1 : S_.BroadcastsInDim S1 (![] : Fin 0 → Fin S1.rank)
  concatenates_S1_S1_S2_d0 : Shape.Concatenates [S1, S1] S2 0
  concatenates_S128_S128_S256_d0 : Shape.Concatenates [S128, S128] S256 0
  bcast_S_S256x128 : S_.BroadcastsInDim S256x128 (![] : Fin 0 → Fin S256x128.rank)
  concatenates_S64_S64_S128_d0 : Shape.Concatenates [S64, S64] S128 0
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S8192x256 : S1x256.Broadcasts S8192x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S8192x128 : S1x128.Broadcasts S8192x128
  shapeCasts_S524288x128_S1048576x64 : S524288x128.ShapeCasts S1048576x64
  scatter_S128x256_S2_S64x128_01_n_01_0_wf : ScatterDims.WF S128x256 S2 S64x128 [0, 1] [] [0, 1] 0
  scatter_S256x128_S2_S128x64_01_n_01_0_wf : ScatterDims.WF S256x128 S2 S128x64 [0, 1] [] [0, 1] 0
  dot_S8192x128_S128x256_S8192x256_1_0_0_1_n_n_wf : DotDims.WF S8192x128 S128x256 S8192x256 [1] [0] [0] [1] [] []
  dot_S8192x256_S256x128_S8192x128_1_0_0_1_n_n_wf : DotDims.WF S8192x256 S256x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x128.size a ≤ S524288x128.size a
  hwx0_5 : ∀ i : grid0.Coords, EltTy.bits .f32 = 32 ∨ (Rect.block (s := S524288x128) S8192x128.size (cc0_transform_5 i) (hinb0_5 i)).WholeWords (EltTy.packing .f32)

variable [Facts₀]

def scatter_S128x256_S2_S64x128_01_n_01_0 : ScatterDims S128x256 S2 S64x128 where
  updateWindowDims := [0, 1]
  insertedWindowDims := []
  scatterDimsToOperandDims := [0, 1]
  indexVectorDim := 0
  wf := scatter_S128x256_S2_S64x128_01_n_01_0_wf
def scatter_S256x128_S2_S128x64_01_n_01_0 : ScatterDims S256x128 S2 S128x64 where
  updateWindowDims := [0, 1]
  insertedWindowDims := []
  scatterDimsToOperandDims := [0, 1]
  indexVectorDim := 0
  wf := scatter_S256x128_S2_S128x64_01_n_01_0_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf

abbrev win0_0 : Pipeline.Window sig grid0 :=
  Pipeline.Window.ofSpec (Memref.whole main_v48) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v57) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v58) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v67) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v68) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v69) S8192x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1048576x64 : Shape := ⟨2, ![1048576, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S128x2 : Shape := ⟨2, ![128, 2]⟩
abbrev S64x1x2 : Shape := ⟨3, ![64, 1, 2]⟩
abbrev S1x128x2 : Shape := ⟨3, ![1, 128, 2]⟩
abbrev S64x128x2 : Shape := ⟨3, ![64, 128, 2]⟩
abbrev S_ : Shape := ⟨0, ![]⟩
abbrev S128x1x2 : Shape := ⟨3, ![128, 1, 2]⟩
abbrev S1x64x2 : Shape := ⟨3, ![1, 64, 2]⟩
abbrev S128x64x2 : Shape := ⟨3, ![128, 64, 2]⟩
abbrev S1048576x128 : Shape := ⟨2, ![1048576, 128]⟩
abbrev S1x128 : Shape := ⟨2, ![1, 128]⟩
abbrev S1x64 : Shape := ⟨2, ![1, 64]⟩

abbrev nBuf : Space → Nat
  | .hbm => 110
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S64x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S64x2, .f32⟩
  | .hbm, ⟨6, _⟩ => ⟨S128x2, .f32⟩
  | .hbm, ⟨7, _⟩ => ⟨S64x2, .f32⟩
  | .hbm, ⟨8, _⟩ => ⟨S64x1x2, .f32⟩
  | .hbm, ⟨9, _⟩ => ⟨S1x128x2, .f32⟩
  | .hbm, ⟨10, _⟩ => ⟨S64x128x2, .f32⟩
  | .hbm, ⟨11, _⟩ => ⟨S64x128x2, .f32⟩
  | .hbm, ⟨12, _⟩ => ⟨S64x128x2, .f32⟩
  | .hbm, ⟨13, _⟩ => ⟨S64x128x2, .f32⟩
  | .hbm, ⟨14, _⟩ => ⟨S_, .f32⟩
  | .hbm, ⟨15, _⟩ => ⟨S64x128, .f32⟩
  | .hbm, ⟨16, _⟩ => ⟨S128x1x2, .f32⟩
  | .hbm, ⟨17, _⟩ => ⟨S1x64x2, .f32⟩
  | .hbm, ⟨18, _⟩ => ⟨S128x64x2, .f32⟩
  | .hbm, ⟨19, _⟩ => ⟨S128x64x2, .f32⟩
  | .hbm, ⟨20, _⟩ => ⟨S128x64x2, .f32⟩
  | .hbm, ⟨21, _⟩ => ⟨S128x64x2, .f32⟩
  | .hbm, ⟨22, _⟩ => ⟨S_, .f32⟩
  | .hbm, ⟨23, _⟩ => ⟨S128x64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S64x128, .f32⟩
  | .hbm, ⟨28, _⟩ => ⟨S64x128, .f32⟩
  | .hbm, ⟨29, _⟩ => ⟨S_, .f32⟩
  | .hbm, ⟨30, _⟩ => ⟨S64x128, .f32⟩
  | .hbm, ⟨31, _⟩ => ⟨S64x128, .f32⟩
  | .hbm, ⟨32, _⟩ => ⟨S_, .f32⟩
  | .hbm, ⟨33, _⟩ => ⟨S64x128, .f32⟩
  | .hbm, ⟨34, _⟩ => ⟨S64x128, .f32⟩
  | .hbm, ⟨35, _⟩ => ⟨S_, .f32⟩
  | .hbm, ⟨36, _⟩ => ⟨S64x128, .f32⟩
  | .hbm, ⟨37, _⟩ => ⟨S64x128, .f32⟩
  | .hbm, ⟨38, _⟩ => ⟨S_, .f32⟩
  | .hbm, ⟨39, _⟩ => ⟨S64x128, .f32⟩
  | .hbm, ⟨40, _⟩ => ⟨S64x128, .f32⟩
  | .hbm, ⟨41, _⟩ => ⟨S_, .f32⟩
  | .hbm, ⟨42, _⟩ => ⟨S64x128, .f32⟩
  | .hbm, ⟨43, _⟩ => ⟨S64x128, .f32⟩
  | .hbm, ⟨44, _⟩ => ⟨S_, .f32⟩
  | .hbm, ⟨45, _⟩ => ⟨S64x128, .f32⟩
  | .hbm, ⟨46, _⟩ => ⟨S64x128, .f32⟩
  | .hbm, ⟨47, _⟩ => ⟨S64x128, .f32⟩
  | .hbm, ⟨48, _⟩ => ⟨S_, .f32⟩
  | .hbm, ⟨49, _⟩ => ⟨S64x128, .f32⟩
  | .hbm, ⟨50, _⟩ => ⟨S64x128, .f32⟩
  | .hbm, ⟨51, _⟩ => ⟨S_, .f32⟩
  | .hbm, ⟨52, _⟩ => ⟨S64x128, .f32⟩
  | .hbm, ⟨53, _⟩ => ⟨S64x128, .f32⟩
  | .hbm, ⟨54, _⟩ => ⟨S64x128, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S128x64, .f32⟩
  | .hbm, ⟨59, _⟩ => ⟨S128x64, .f32⟩
  | .hbm, ⟨60, _⟩ => ⟨S_, .f32⟩
  | .hbm, ⟨61, _⟩ => ⟨S128x64, .f32⟩
  | .hbm, ⟨62, _⟩ => ⟨S128x64, .f32⟩
  | .hbm, ⟨63, _⟩ => ⟨S_, .f32⟩
  | .hbm, ⟨64, _⟩ => ⟨S128x64, .f32⟩
  | .hbm, ⟨65, _⟩ => ⟨S128x64, .f32⟩
  | .hbm, ⟨66, _⟩ => ⟨S_, .f32⟩
  | .hbm, ⟨67, _⟩ => ⟨S128x64, .f32⟩
  | .hbm, ⟨68, _⟩ => ⟨S128x64, .f32⟩
  | .hbm, ⟨69, _⟩ => ⟨S_, .f32⟩
  | .hbm, ⟨70, _⟩ => ⟨S128x64, .f32⟩
  | .hbm, ⟨71, _⟩ => ⟨S128x64, .f32⟩
  | .hbm, ⟨72, _⟩ => ⟨S_, .f32⟩
  | .hbm, ⟨73, _⟩ => ⟨S128x64, .f32⟩
  | .hbm, ⟨74, _⟩ => ⟨S128x64, .f32⟩
  | .hbm, ⟨75, _⟩ => ⟨S_, .f32⟩
  | .hbm, ⟨76, _⟩ => ⟨S128x64, .f32⟩
  | .hbm, ⟨77, _⟩ => ⟨S128x64, .f32⟩
  | .hbm, ⟨78, _⟩ => ⟨S128x64, .f32⟩
  | .hbm, ⟨79, _⟩ => ⟨S_, .f32⟩
  | .hbm, ⟨80, _⟩ => ⟨S128x64, .f32⟩
  | .hbm, ⟨81, _⟩ => ⟨S128x64, .f32⟩
  | .hbm, ⟨82, _⟩ => ⟨S_, .f32⟩
  | .hbm, ⟨83, _⟩ => ⟨S128x64, .f32⟩
  | .hbm, ⟨84, _⟩ => ⟨S128x64, .f32⟩
  | .hbm, ⟨85, _⟩ => ⟨S128x64, .f32⟩
  | .hbm, ⟨86, _⟩ => ⟨S1048576x128, .f32⟩
  | .hbm, ⟨87, _⟩ => ⟨S1x128, .f32⟩
  | .hbm, ⟨88, _⟩ => ⟨S1048576x128, .f32⟩
  | .hbm, ⟨89, _⟩ => ⟨S1048576x128, .f32⟩
  | .hbm, ⟨90, _⟩ => ⟨S1048576x128, .f32⟩
  | .hbm, ⟨91, _⟩ => ⟨S1048576x128, .f32⟩
  | .hbm, ⟨92, _⟩ => ⟨S_, .f32⟩
  | .hbm, ⟨93, _⟩ => ⟨S1048576x128, .f32⟩
  | .hbm, ⟨94, _⟩ => ⟨S1048576x128, .f32⟩
  | .hbm, ⟨95, _⟩ => ⟨S_, .f32⟩
  | .hbm, ⟨96, _⟩ => ⟨S1048576x128, .f32⟩
  | .hbm, ⟨97, _⟩ => ⟨S1048576x128, .f32⟩
  | .hbm, ⟨98, _⟩ => ⟨S1048576x64, .f32⟩
  | .hbm, ⟨99, _⟩ => ⟨S1x64, .f32⟩
  | .hbm, ⟨100, _⟩ => ⟨S1048576x64, .f32⟩
  | .hbm, ⟨101, _⟩ => ⟨S1048576x64, .f32⟩
  | .hbm, ⟨102, _⟩ => ⟨S1048576x64, .f32⟩
  | .hbm, ⟨103, _⟩ => ⟨S1048576x64, .f32⟩
  | .hbm, ⟨104, _⟩ => ⟨S_, .f32⟩
  | .hbm, ⟨105, _⟩ => ⟨S1048576x64, .f32⟩
  | .hbm, ⟨106, _⟩ => ⟨S1048576x64, .f32⟩
  | .hbm, ⟨107, _⟩ => ⟨S_, .f32⟩
  | .hbm, ⟨108, _⟩ => ⟨S1048576x64, .f32⟩
  | .hbm, ⟨109, _⟩ => ⟨S1048576x64, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_cst_1 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_cst_5 : Ref sig .tc := ⟨.hbm, 38, rfl⟩
abbrev main_v19 : Ref sig .tc := ⟨.hbm, 39, rfl⟩
abbrev main_v20 : Ref sig .tc := ⟨.hbm, 40, rfl⟩
abbrev main_cst_6 : Ref sig .tc := ⟨.hbm, 41, rfl⟩
abbrev main_v21 : Ref sig .tc := ⟨.hbm, 42, rfl⟩
abbrev main_v22 : Ref sig .tc := ⟨.hbm, 43, rfl⟩
abbrev main_cst_7 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_8 : Ref sig .tc := ⟨.hbm, 48, rfl⟩
abbrev main_v26 : Ref sig .tc := ⟨.hbm, 49, rfl⟩
abbrev main_v27 : Ref sig .tc := ⟨.hbm, 50, rfl⟩
abbrev main_cst_9 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_10 : Ref sig .tc := ⟨.hbm, 55, rfl⟩
abbrev main_cst_11 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_v31 : Ref sig .tc := ⟨.hbm, 62, rfl⟩
abbrev main_cst_12 : Ref sig .tc := ⟨.hbm, 63, rfl⟩
abbrev main_v32 : Ref sig .tc := ⟨.hbm, 64, rfl⟩
abbrev main_v33 : Ref sig .tc := ⟨.hbm, 65, rfl⟩
abbrev main_cst_13 : Ref sig .tc := ⟨.hbm, 66, rfl⟩
abbrev main_v34 : Ref sig .tc := ⟨.hbm, 67, rfl⟩
abbrev main_v35 : Ref sig .tc := ⟨.hbm, 68, rfl⟩
abbrev main_cst_14 : Ref sig .tc := ⟨.hbm, 69, rfl⟩
abbrev main_v36 : Ref sig .tc := ⟨.hbm, 70, rfl⟩
abbrev main_v37 : Ref sig .tc := ⟨.hbm, 71, rfl⟩
abbrev main_cst_15 : Ref sig .tc := ⟨.hbm, 72, rfl⟩
abbrev main_v38 : Ref sig .tc := ⟨.hbm, 73, rfl⟩
abbrev main_v39 : Ref sig .tc := ⟨.hbm, 74, rfl⟩
abbrev main_cst_16 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_17 : Ref sig .tc := ⟨.hbm, 79, rfl⟩
abbrev main_v43 : Ref sig .tc := ⟨.hbm, 80, rfl⟩
abbrev main_v44 : Ref sig .tc := ⟨.hbm, 81, rfl⟩
abbrev main_cst_18 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_19 : Ref sig .tc := ⟨.hbm, 92, rfl⟩
abbrev main_v54 : Ref sig .tc := ⟨.hbm, 93, rfl⟩
abbrev main_v55 : Ref sig .tc := ⟨.hbm, 94, rfl⟩
abbrev main_cst_20 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_21 : Ref sig .tc := ⟨.hbm, 104, rfl⟩
abbrev main_v64 : Ref sig .tc := ⟨.hbm, 105, rfl⟩
abbrev main_v65 : Ref sig .tc := ⟨.hbm, 106, rfl⟩
abbrev main_cst_22 : Ref sig .tc := ⟨.hbm, 107, rfl⟩
abbrev main_v66 : Ref sig .tc := ⟨.hbm, 108, rfl⟩
abbrev main_v67 : Ref sig .tc := ⟨.hbm, 109, rfl⟩

abbrev nD : Nat := 1
abbrev τ : Topo := Topo.v7x

variable {F : FTy → Type} [FloatOps F]

class Facts₀ : Prop where
  bcast_S64x2_S64x1x2_0_2 : S64x2.BroadcastsInDim S64x1x2 (![0, 2] : Fin 2 → Fin S64x1x2.rank)
  bcast_S128x2_S1x128x2_1_2 : S128x2.BroadcastsInDim S1x128x2 (![1, 2] : Fin 2 → Fin S1x128x2.rank)
  bcast_S64x1x2_S64x128x2_0_1_2 : S64x1x2.BroadcastsInDim S64x128x2 (![0, 1, 2] : Fin 3 → Fin S64x128x2.rank)
  bcast_S1x128x2_S64x128x2_0_1_2 : S1x128x2.BroadcastsInDim S64x128x2 (![0, 1, 2] : Fin 3 → Fin S64x128x2.rank)
  reducesTo_S64x128x2_S64x128_d2 : S64x128x2.ReducesTo [2] S64x128
  h_S_ : 0 < S_.numel
  bcast_S128x2_S128x1x2_0_2 : S128x2.BroadcastsInDim S128x1x2 (![0, 2] : Fin 2 → Fin S128x1x2.rank)
  bcast_S64x2_S1x64x2_1_2 : S64x2.BroadcastsInDim S1x64x2 (![1, 2] : Fin 2 → Fin S1x64x2.rank)
  bcast_S128x1x2_S128x64x2_0_1_2 : S128x1x2.BroadcastsInDim S128x64x2 (![0, 1, 2] : Fin 3 → Fin S128x64x2.rank)
  bcast_S1x64x2_S128x64x2_0_1_2 : S1x64x2.BroadcastsInDim S128x64x2 (![0, 1, 2] : Fin 3 → Fin S128x64x2.rank)
  reducesTo_S128x64x2_S128x64_d2 : S128x64x2.ReducesTo [2] S128x64
  bcast_S_S64x128 : S_.BroadcastsInDim S64x128 (![] : Fin 0 → Fin S64x128.rank)
  bcast_S_S128x64 : S_.BroadcastsInDim S128x64 (![] : Fin 0 → Fin S128x64.rank)
  bcast_S128_S1x128_1 : S128.BroadcastsInDim S1x128 (![1] : Fin 1 → Fin S1x128.rank)
  bcast_S1x128_S1048576x128_0_1 : S1x128.BroadcastsInDim S1048576x128 (![0, 1] : Fin 2 → Fin S1048576x128.rank)
  bcast_S_S1048576x128 : S_.BroadcastsInDim S1048576x128 (![] : Fin 0 → Fin S1048576x128.rank)
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S_S1048576x64 : S_.BroadcastsInDim S1048576x64 (![] : Fin 0 → Fin S1048576x64.rank)
  dot_S1048576x64_S64x128_S1048576x128_1_0_0_1_n_n_wf : DotDims.WF S1048576x64 S64x128 S1048576x128 [1] [0] [0] [1] [] []
  dot_S1048576x128_S128x64_S1048576x64_1_0_0_1_n_n_wf : DotDims.WF S1048576x128 S128x64 S1048576x64 [1] [0] [0] [1] [] []

variable [Facts₀]

def dot_S1048576x64_S64x128_S1048576x128_1_0_0_1_n_n : DotDims S1048576x64 S64x128 S1048576x128 where
  lhsContracting := [1]
  rhsContracting := [0]
  lhsNonContracting := [0]
  rhsNonContracting := [1]
  lhsBatch := []
  rhsBatch := []
  wf := dot_S1048576x64_S64x128_S1048576x128_1_0_0_1_n_n_wf
def dot_S1048576x128_S128x64_S1048576x64_1_0_0_1_n_n : DotDims S1048576x128 S128x64 S1048576x64 where
  lhsContracting := [1]
  rhsContracting := [0]
  lhsNonContracting := [0]
  rhsNonContracting := [1]
  lhsBatch := []
  rhsBatch := []
  wf := dot_S1048576x128_S128x64_S1048576x64_1_0_0_1_n_n_wf

class Facts : Prop extends Facts₀ where

variable [Facts]
-- ==== Proof.Args.lean ====
/-
  The quantities the two programs share, as functions of the argument arrays: the rows `x`, the effective
  weights of the two layers (each weight scaled by `1 / (R + 1)`, `R` the resistance of a trace whose length is
  the Manhattan distance between the two units' positions and whose width grows with the clipped weight), and the
  two biases. Both programs compute the effective weights by the same host operations, so they are kept as the
  reference's own terms and never opened.
-/
import proofs.«150543_j15152644620825_2_alg».proof.Proof.Gen.KernelIdeal.Frame
import proofs.«150543_j15152644620825_2_alg».proof.Proof.Gen.ReferenceIdeal.Read
import Idealize.ShloMosaic.PureOps.Ideal

noncomputable section

namespace Cert.KernelIdeal.Args

open Idealize.ShloMosaic Idealize.ShloMosaic.TcCoe Idealize.SL.Sem
open Cert.KernelIdeal Cert.KernelIdeal.Facts₀

variable (m : (ℓ : Loc nD τ sig) → Buf (Elt Ideal) ℓ) (c : Dev nD)

/-- The rows `x`. -/
def rows : S1048576x64.Idx → EReal := m ((c.tc : Thread nD τ).loc main_arg0)
/-- The first layer's bias. -/
def bias1 : S128.Idx → EReal := m ((c.tc : Thread nD τ).loc main_arg2)
/-- The second layer's bias. -/
def bias2 : S64.Idx → EReal := m ((c.tc : Thread nD τ).loc main_arg4)

/-- The first layer's effective weights, as the reference computes them from the arguments. -/
def W1e : S64x128.Idx → EReal :=
  Cert.ReferenceIdeal.Read.val_main_v30 (F := Ideal) (m ((c.tc : Thread nD τ).loc main_arg1))
    (m ((c.tc : Thread nD τ).loc main_arg5)) (m ((c.tc : Thread nD τ).loc main_arg6))

/-- The second layer's effective weights, as the reference computes them from the arguments. -/
def W2e : S128x64.Idx → EReal :=
  Cert.ReferenceIdeal.Read.val_main_v47 (F := Ideal) (m ((c.tc : Thread nD τ).loc main_arg3))
    (m ((c.tc : Thread nD τ).loc main_arg6)) (m ((c.tc : Thread nD τ).loc main_arg7))

/-- The index vector `(r, k)` as the program builds it: two one-element vectors joined. -/
def corner (r k : BitVec 32) : IVec S2 32 :=
  concatenate S2 0 [⟨S1, broadcastInDim S1 ![] bcast_S_S1 (constantI S_ 32 r)⟩,
    ⟨S1, broadcastInDim S1 ![] bcast_S_S1 (constantI S_ 32 k)⟩] concatenates_S1_S1_S2_d0

end Cert.KernelIdeal.Args

end
-- ==== Proof.ArraysRows.lean ====
/-
  What the region finds in the arrays of its row and bias windows: the rows viewed two to a packed row, and each
  bias joined to itself.
-/
import proofs.«150543_j15152644620825_2_alg».proof.Proof.Args
import Idealize.ShloMosaic.Lib.StableHlo.Run
import Idealize.ShloMosaic.Lib.Pipeline.Value

noncomputable section

namespace Cert.KernelIdeal.Arrays

open Idealize.ShloMosaic Idealize.ShloMosaic.TcCoe Idealize.SL.Sem Idealize.ShloMosaic.StableHlo
open Cert.KernelIdeal Cert.KernelIdeal.Gen Cert.KernelIdeal.Args

variable (m : (ℓ : Loc nD τ sig) → Buf (Elt Ideal) ℓ) (c : Dev nD)

set_option maxHeartbeats 8000000 in
/-- The row window's array: the rows, reshaped two to a packed row. -/
theorem V48_eq : (V m c main_v48 : S524288x128.Idx → EReal)
    = shapeCast S524288x128 (rows m c) Facts₀.shapeCasts_S1048576x64_S524288x128 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

set_option maxHeartbeats 8000000 in
/-- The first bias window's array: the bias joined to itself. -/
theorem V58_eq : (V m c main_v58 : S256.Idx → EReal)
    = concatenate S256 0 [⟨S128, bias1 m c⟩, ⟨S128, bias1 m c⟩] Facts₀.concatenates_S128_S128_S256_d0 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

set_option maxHeartbeats 8000000 in
/-- The second bias window's array: the bias joined to itself. -/
theorem V68_eq : (V m c main_v68 : S128.Idx → EReal)
    = concatenate S128 0 [⟨S64, bias2 m c⟩, ⟨S64, bias2 m c⟩] Facts₀.concatenates_S64_S64_S128_d0 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

end Cert.KernelIdeal.Arrays

end
-- ==== Proof.ArraysWeights.lean ====
/-
  What the region finds in the arrays of its two weight windows: an array of zeros into which the effective
  weights are written twice, once at the top-left corner and once at the corner diagonally below it.
-/
import proofs.«150543_j15152644620825_2_alg».proof.Proof.Args
import Idealize.ShloMosaic.Lib.StableHlo.Run
import Idealize.ShloMosaic.Lib.Pipeline.Value

noncomputable section

namespace Cert.KernelIdeal.Arrays

open Idealize.ShloMosaic Idealize.ShloMosaic.TcCoe Idealize.SL.Sem Idealize.ShloMosaic.StableHlo
open Cert.KernelIdeal Cert.KernelIdeal.Gen Cert.KernelIdeal.Args

variable (m : (ℓ : Loc nD τ sig) → Buf (Elt Ideal) ℓ) (c : Dev nD)

set_option maxHeartbeats 8000000 in
/-- The first weight window's array: zeros, with the first layer's effective weights written at `(0, 0)` and at
    `(64, 128)`. -/
theorem V57_eq : (V m c main_v57 : S128x256.Idx → EReal)
    = Host.scatter scatter_S128x256_S2_S64x128_01_n_01_0 (fun _ b => b)
        (Host.scatter scatter_S128x256_S2_S64x128_01_n_01_0 (fun _ b => b)
          (broadcastInDim S128x256 ![] Facts₀.bcast_S_S128x256 (constant (F := Ideal) S_ .f32 0x00000000#32)) (corner 0#32 0#32) (W1e m c))
        (corner 64#32 128#32) (W1e m c) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

set_option maxHeartbeats 8000000 in
/-- The second weight window's array: zeros, with the second layer's effective weights written at `(0, 0)` and at
    `(128, 64)`. -/
theorem V67_eq : (V m c main_v67 : S256x128.Idx → EReal)
    = Host.scatter scatter_S256x128_S2_S128x64_01_n_01_0 (fun _ b => b)
        (Host.scatter scatter_S256x128_S2_S128x64_01_n_01_0 (fun _ b => b)
          (broadcastInDim S256x128 ![] Facts₀.bcast_S_S256x128 (constant (F := Ideal) S_ .f32 0x00000000#32)) (corner 0#32 0#32) (W2e m c))
        (corner 128#32 64#32) (W2e m c) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

end Cert.KernelIdeal.Arrays

end
-- ==== Proof.LibWindowScatter.lean ====
/-
  A whole two-dimensional update written into a larger array at a constant corner.

  The host's scatter with a "set" body (the body returns the update's element) runs over the update's indices in
  row-major order, each one replacing the element it lands on. When distinct update indices land on distinct
  elements the order is immaterial: an element some update index lands on holds that update's element, every
  other element is the operand's. For the dimension numbers of a window scatter — both axes of the update are
  window axes, one index vector `(r0, c0)` names the corner — update index `(p, q)` lands on `(r0 + p, c0 + q)`,
  so the result is the update on the rectangle `[r0, r0 + a) × [c0, c0 + b)` and the operand outside it.
-/
import Idealize.ShloMosaic.PureOps.ShapeOps
import Idealize.ShloMosaic.PureOps.Dims
import Idealize.ShloMosaic.Lib.ValueIdx

noncomputable section

namespace Cert.LibWindowScatter

open Idealize.ShloMosaic Idealize.ShloMosaic.ValueIdx

/-! ## A fold of "set" steps, read at one element -/

section Fold
variable {ι κ α : Type} (g : ι → Option κ) (v : ι → α) (stp : (κ → α) → ι → (κ → α)) (i : κ)
  (H1 : ∀ r n, g n = some i → stp r n i = v n) (H2 : ∀ r n, g n ≠ some i → stp r n i = r i)
include H1 H2

/-- If the element starts at `c` and every step landing on it writes `c`, it ends at `c`. -/
theorem foldl_const (c : α) (hv : ∀ n, g n = some i → v n = c) (l : List ι) :
    ∀ x : κ → α, x i = c → l.foldl stp x i = c := by
  induction l with
  | nil => intro x hx; exact hx
  | cons n t ih =>
    intro x hx
    rw [List.foldl_cons]
    apply ih
    by_cases h : g n = some i
    · rw [H1 x n h]; exact hv n h
    · rw [H2 x n h]; exact hx

/-- If step `n0` of the list lands on the element and every step landing on it writes what `n0` writes, the
    element ends at what `n0` writes. -/
theorem foldl_hit (n0 : ι) (h0 : g n0 = some i) (hv : ∀ n, g n = some i → v n = v n0) (l : List ι) (hm : n0 ∈ l) :
    ∀ x : κ → α, l.foldl stp x i = v n0 := by
  induction l with
  | nil => exact absurd hm List.not_mem_nil
  | cons n t ih =>
    intro x
    rw [List.foldl_cons]
    rcases List.mem_cons.mp hm with rfl | hm'
    · exact foldl_const g v stp i H1 H2 (v n0) hv t _ (H1 x n0 h0)
    · exact ih hm' _
end Fold

/-! ## The host's "set" scatter, read at one element -/

section Scatter
variable {s si u : Shape} {α : Type} {w : Nat} (d : ScatterDims s si u) (x : s.Idx → α) (idx : IVec si w) (upd : u.Idx → α)

/-- One step of the fold at an element it lands on: the update's element. -/
private theorem step_hit (r : s.Idx → α) (n : Fin u.numel) (i : s.Idx) (o : Option s.Idx) (h : o = some i) :
    (match (motive := Option s.Idx → s.Idx → α) o with
      | some i => fun i' => if i' = i then (fun _ b => b) (r i) (upd (u.rowMajor.symm n)) else r i'
      | none => r) i = upd (u.rowMajor.symm n) := by
  subst h
  exact if_pos rfl

/-- One step of the fold at an element it does not land on: unchanged. -/
private theorem step_miss (r : s.Idx → α) (n : Fin u.numel) (i : s.Idx) (o : Option s.Idx) (h : o ≠ some i) :
    (match (motive := Option s.Idx → s.Idx → α) o with
      | some i => fun i' => if i' = i then (fun _ b => b) (r i) (upd (u.rowMajor.symm n)) else r i'
      | none => r) i = r i := by
  cases o with
  | none => rfl
  | some k => exact if_neg (fun e => h (by rw [e]))

/-- An element no update index lands on keeps the operand's value. -/
theorem scatter_set_miss (i : s.Idx) (hmiss : ∀ j : u.Idx, d.resultIdx? j idx ≠ some i) :
    Host.scatter d (fun _ b => b) x idx upd i = x i := by
  unfold Host.scatter
  exact foldl_const (fun n : Fin u.numel => d.resultIdx? (u.rowMajor.symm n) idx) (fun n => upd (u.rowMajor.symm n)) _ i
    (fun r n h => step_hit upd r n i _ h) (fun r n h => step_miss upd r n i _ h)
    (x i) (fun n h => absurd h (hmiss _)) _ x rfl

/-- An element exactly one update index lands on holds that update's element. -/
theorem scatter_set_hit (i : s.Idx) (j0 : u.Idx) (h0 : d.resultIdx? j0 idx = some i)
    (huniq : ∀ j : u.Idx, d.resultIdx? j idx = some i → j = j0) :
    Host.scatter d (fun _ b => b) x idx upd i = upd j0 := by
  unfold Host.scatter
  refine (foldl_hit (fun n : Fin u.numel => d.resultIdx? (u.rowMajor.symm n) idx) (fun n => upd (u.rowMajor.symm n)) _ i
    (fun r n h => step_hit upd r n i _ h) (fun r n h => step_miss upd r n i _ h)
    (u.rowMajor j0) ?_ ?_ (List.finRange u.numel) (List.mem_finRange _) x).trans ?_
  · show d.resultIdx? (u.rowMajor.symm (u.rowMajor j0)) idx = some i
    rw [Equiv.symm_apply_apply]; exact h0
  · intro n h
    show upd (u.rowMajor.symm n) = upd (u.rowMajor.symm (u.rowMajor j0))
    rw [huniq _ h, Equiv.symm_apply_apply]
  · show upd (u.rowMajor.symm (u.rowMajor j0)) = upd j0
    rw [Equiv.symm_apply_apply]
end Scatter

/-! ## The window scatter's dimension numbers -/

/-- The dimension numbers of a scatter of a whole `[a, b]` update into an `[A, B]` operand at one index vector:
    both update axes are window axes, the index vector's two components start operand axes 0 and 1. The side
    condition is a parameter: any record with the same lists is one of these by unfolding. -/
abbrev windowScatter (A B a b : Nat)
    (wf : ScatterDims.WF ⟨2, ![A, B]⟩ ⟨1, ![2]⟩ ⟨2, ![a, b]⟩ [0, 1] [] [0, 1] 0) :
    ScatterDims ⟨2, ![A, B]⟩ ⟨1, ![2]⟩ ⟨2, ![a, b]⟩ where
  updateWindowDims := [0, 1]
  insertedWindowDims := []
  scatterDimsToOperandDims := [0, 1]
  indexVectorDim := 0
  wf := wf

/-- A coordinate inside a window of extent `a` placed at `R0` with `R0 + a ≤ A` is inside the operand. -/
theorem lt_of (R0 a A : ℕ) (hA : R0 + a ≤ A) (p : Fin a) : R0 + p.val < A := by have := p.isLt; omega

section Window
variable {A B a b w : Nat} (wf : ScatterDims.WF ⟨2, ![A, B]⟩ ⟨1, ![2]⟩ ⟨2, ![a, b]⟩ [0, 1] [] [0, 1] 0)
  (idx : IVec ⟨1, ![2]⟩ w)

/-- Component 0 of the index vector starts operand axis 0. -/
theorem start_zero (j : (⟨2, ![a, b]⟩ : Shape).Idx) :
    (windowScatter A B a b wf).start j idx 0 = (idx (ix1 0)).toInt := by
  unfold ScatterDims.start
  rw [dif_pos (show (0 : Fin 2) ∈ (windowScatter A B a b wf).scatterDimsToOperandDims from by simp)]
  refine congrArg (fun t => (idx t).toInt) ?_
  funext b0
  match b0 with
  | ⟨0, _⟩ =>
    unfold ScatterDims.siIdx
    rw [dif_pos rfl]
    exact Fin.ext rfl

/-- Component 1 of the index vector starts operand axis 1. -/
theorem start_one (j : (⟨2, ![a, b]⟩ : Shape).Idx) :
    (windowScatter A B a b wf).start j idx 1 = (idx (ix1 1)).toInt := by
  unfold ScatterDims.start
  rw [dif_pos (show (1 : Fin 2) ∈ (windowScatter A B a b wf).scatterDimsToOperandDims from by simp)]
  refine congrArg (fun t => (idx t).toInt) ?_
  funext b0
  match b0 with
  | ⟨0, _⟩ =>
    unfold ScatterDims.siIdx
    rw [dif_pos rfl]
    exact Fin.ext rfl

/-- The window coordinate on operand axis 0 is the update index's coordinate 0. -/
theorem window_zero (j : (⟨2, ![a, b]⟩ : Shape).Idx) :
    (windowScatter A B a b wf).window j 0 = (j 0).val := by
  unfold ScatterDims.window
  rw [dif_pos (by simp [ScatterDims.sKept, Shape.kept, List.finRange])]
  rfl

/-- The window coordinate on operand axis 1 is the update index's coordinate 1. -/
theorem window_one (j : (⟨2, ![a, b]⟩ : Shape).Idx) :
    (windowScatter A B a b wf).window j 1 = (j 1).val := by
  unfold ScatterDims.window
  rw [dif_pos (by simp [ScatterDims.sKept, Shape.kept, List.finRange])]
  rfl

variable (R0 C0 : ℕ) (h0 : (idx (ix1 0)).toInt = (R0 : ℤ)) (h1 : (idx (ix1 1)).toInt = (C0 : ℤ))
  (hA : R0 + a ≤ A) (hB : C0 + b ≤ B)
include h0 h1 hA hB

/-- WHERE AN UPDATE INDEX LANDS: with the corner `(R0, C0)` and the rectangle inside the operand, update index
    `(p, q)` lands on `(R0 + p, C0 + q)`. -/
theorem resultIdx_eq (p : Fin a) (q : Fin b) :
    (windowScatter A B a b wf).resultIdx? (ix2 p q) idx
      = some (ix2 ⟨R0 + p.val, lt_of R0 a A hA p⟩ ⟨C0 + q.val, lt_of C0 b B hB q⟩) := by
  have hs0 := start_zero wf idx (ix2 p q)
  have hs1 := start_one wf idx (ix2 p q)
  have hw0 : (windowScatter A B a b wf).window (ix2 p q) 0 = p.val := window_zero wf (ix2 p q)
  have hw1 : (windowScatter A B a b wf).window (ix2 p q) 1 = q.val := window_one wf (ix2 p q)
  unfold ScatterDims.resultIdx?
  rw [dif_pos (fun c => by
    match c with
    | ⟨0, _⟩ =>
      show 0 ≤ (windowScatter A B a b wf).start (ix2 p q) idx 0 + ((windowScatter A B a b wf).window (ix2 p q) 0 : ℤ) ∧
        (windowScatter A B a b wf).start (ix2 p q) idx 0 + ((windowScatter A B a b wf).window (ix2 p q) 0 : ℤ) < (A : ℤ)
      rw [hs0, hw0, h0]; have := p.isLt; omega
    | ⟨1, _⟩ =>
      show 0 ≤ (windowScatter A B a b wf).start (ix2 p q) idx 1 + ((windowScatter A B a b wf).window (ix2 p q) 1 : ℤ) ∧
        (windowScatter A B a b wf).start (ix2 p q) idx 1 + ((windowScatter A B a b wf).window (ix2 p q) 1 : ℤ) < (B : ℤ)
      rw [hs1, hw1, h1]; have := q.isLt; omega)]
  refine congrArg some (funext fun c => Fin.ext ?_)
  match c with
  | ⟨0, _⟩ =>
    show ((windowScatter A B a b wf).start (ix2 p q) idx 0 + ((windowScatter A B a b wf).window (ix2 p q) 0 : ℤ)).toNat = R0 + p.val
    rw [hs0, hw0, h0]; omega
  | ⟨1, _⟩ =>
    show ((windowScatter A B a b wf).start (ix2 p q) idx 1 + ((windowScatter A B a b wf).window (ix2 p q) 1 : ℤ)).toNat = C0 + q.val
    rw [hs1, hw1, h1]; omega

variable {α : Type} (x : (⟨2, ![A, B]⟩ : Shape).Idx → α) (upd : (⟨2, ![a, b]⟩ : Shape).Idx → α)

/-- INSIDE THE RECTANGLE the result is the update: at `(R0 + p, C0 + q)` it is the update at `(p, q)`. -/
theorem windowScatter_inside (p : Fin a) (q : Fin b) (i : Fin A) (k : Fin B) (hi : i.val = R0 + p.val) (hk : k.val = C0 + q.val) :
    Host.scatter (windowScatter A B a b wf) (fun _ b => b) x idx upd (ix2 i k) = upd (ix2 p q) := by
  obtain rfl : i = ⟨R0 + p.val, lt_of R0 a A hA p⟩ := Fin.ext hi
  obtain rfl : k = ⟨C0 + q.val, lt_of C0 b B hB q⟩ := Fin.ext hk
  refine scatter_set_hit _ x idx upd _ (ix2 p q) (resultIdx_eq wf idx R0 C0 h0 h1 hA hB p q) ?_
  intro j hj
  obtain ⟨p', q', rfl⟩ : ∃ (p' : Fin a) (q' : Fin b), j = ix2 p' q' := ⟨j 0, j 1, eq_ix2 j⟩
  rw [resultIdx_eq wf idx R0 C0 h0 h1 hA hB p' q'] at hj
  have e := Option.some.inj hj
  have e0 : R0 + p'.val = R0 + p.val := congrArg Fin.val (congrFun e 0)
  have e1 : C0 + q'.val = C0 + q.val := congrArg Fin.val (congrFun e 1)
  rw [show p' = p from Fin.ext (by omega), show q' = q from Fin.ext (by omega)]

/-- OUTSIDE THE RECTANGLE the result is the operand. -/
theorem windowScatter_outside (i : Fin A) (k : Fin B)
    (hout : ¬(R0 ≤ i.val ∧ i.val < R0 + a ∧ C0 ≤ k.val ∧ k.val < C0 + b)) :
    Host.scatter (windowScatter A B a b wf) (fun _ b => b) x idx upd (ix2 i k) = x (ix2 i k) := by
  refine scatter_set_miss _ x idx upd _ ?_
  intro j hj
  obtain ⟨p', q', rfl⟩ : ∃ (p' : Fin a) (q' : Fin b), j = ix2 p' q' := ⟨j 0, j 1, eq_ix2 j⟩
  rw [resultIdx_eq wf idx R0 C0 h0 h1 hA hB p' q'] at hj
  have e := Option.some.inj hj
  have e0 : R0 + p'.val = i.val := congrArg Fin.val (congrFun e 0)
  have e1 : C0 + q'.val = k.val := congrArg Fin.val (congrFun e 1)
  have := p'.isLt; have := q'.isLt
  exact hout ⟨by omega, by omega, by omega, by omega⟩
end Window

end Cert.LibWindowScatter

end
-- ==== Proof.BlockDiagonal.lean ====
/-
  Two rows through one perceptron with block-diagonal weights.

  A two-layer perceptron takes a row `x` of `I` inputs to `O` outputs:
  `out o = σ (∑ j, σ (∑ k, x k * W1 k j + b1 j) * W2 j o + b2 o)`, with `σ z = 1 / (1 + e^(-z))` on the extended reals.
  Put two rows side by side as one row of `I + I` inputs, and use the block-diagonal weights
  `[[W1, 0], [0, W1]]`, `[[W2, 0], [0, W2]]` and the biases repeated twice. The products with the zero blocks are
  zero on the extended reals whatever the other factor is (`0 * ⊤ = 0` there), so they drop out of each sum with no
  finiteness assumption: the left half of the packed output is the perceptron of the left row, the right half
  that of the right row.
-/
import Idealize.ShloMosaic.PureOps.Ideal
import Mathlib.Algebra.BigOperators.Fin

noncomputable section

open scoped BigOperators

namespace Cert.BlockDiagonal

open Idealize.ShloMosaic

/-- One row through the two-layer perceptron, on the extended reals. -/
def mlpRow {I H O : ℕ} (x : Fin I → EReal) (W1 : Fin I → Fin H → EReal) (b1 : Fin H → EReal)
    (W2 : Fin H → Fin O → EReal) (b2 : Fin O → EReal) (o : Fin O) : EReal :=
  Ideal.logistic (∑ j : Fin H, Ideal.logistic (∑ k : Fin I, x k * W1 k j + b1 j) * W2 j o + b2 o)

/-- `Wb` is the block-diagonal matrix `[[W, 0], [0, W]]`. -/
structure IsBlockDiag {I H : ℕ} (W : Fin I → Fin H → EReal) (Wb : Fin (I + I) → Fin (H + H) → EReal) : Prop where
  ul : ∀ k j, Wb (Fin.castAdd I k) (Fin.castAdd H j) = W k j
  ur : ∀ k j, Wb (Fin.castAdd I k) (Fin.natAdd H j) = 0
  ll : ∀ k j, Wb (Fin.natAdd I k) (Fin.castAdd H j) = 0
  lr : ∀ k j, Wb (Fin.natAdd I k) (Fin.natAdd H j) = W k j

/-- `bb` is the vector `b` twice. -/
structure IsTwice {H : ℕ} (b : Fin H → EReal) (bb : Fin (H + H) → EReal) : Prop where
  lo : ∀ j, bb (Fin.castAdd H j) = b j
  hi : ∀ j, bb (Fin.natAdd H j) = b j

section
variable {I H : ℕ} {W : Fin I → Fin H → EReal} {Wb : Fin (I + I) → Fin (H + H) → EReal}

/-- A packed row against a left column of the block-diagonal matrix: only the left half of the row meets `W`. -/
theorem sum_left (hW : IsBlockDiag W Wb) (x : Fin (I + I) → EReal) (j : Fin H) :
    ∑ k, x k * Wb k (Fin.castAdd H j) = ∑ k : Fin I, x (Fin.castAdd I k) * W k j := by
  rw [Fin.sum_univ_add]
  simp only [hW.ul, hW.ll, mul_zero, Finset.sum_const_zero, add_zero]

/-- A packed row against a right column: only the right half of the row meets `W`. -/
theorem sum_right (hW : IsBlockDiag W Wb) (x : Fin (I + I) → EReal) (j : Fin H) :
    ∑ k, x k * Wb k (Fin.natAdd H j) = ∑ k : Fin I, x (Fin.natAdd I k) * W k j := by
  rw [Fin.sum_univ_add]
  simp only [hW.ur, hW.lr, mul_zero, Finset.sum_const_zero, zero_add]
end

section
variable {I H O : ℕ} {W1 : Fin I → Fin H → EReal} {W1b : Fin (I + I) → Fin (H + H) → EReal}
  {b1 : Fin H → EReal} {b1b : Fin (H + H) → EReal} {W2 : Fin H → Fin O → EReal} {W2b : Fin (H + H) → Fin (O + O) → EReal}
  {b2 : Fin O → EReal} {b2b : Fin (O + O) → EReal}

/-- THE LEFT HALF of the packed output is the perceptron of the left half of the packed row. -/
theorem packed_left (hW1 : IsBlockDiag W1 W1b) (hb1 : IsTwice b1 b1b) (hW2 : IsBlockDiag W2 W2b) (hb2 : IsTwice b2 b2b)
    (xx : Fin (I + I) → EReal) (o : Fin O) :
    mlpRow xx W1b b1b W2b b2b (Fin.castAdd O o) = mlpRow (fun k => xx (Fin.castAdd I k)) W1 b1 W2 b2 o := by
  unfold mlpRow
  rw [hb2.lo, Fin.sum_univ_add]
  simp only [hW2.ul, hW2.ll, mul_zero, Finset.sum_const_zero, add_zero, hb1.lo, sum_left hW1]

/-- THE RIGHT HALF of the packed output is the perceptron of the right half of the packed row. -/
theorem packed_right (hW1 : IsBlockDiag W1 W1b) (hb1 : IsTwice b1 b1b) (hW2 : IsBlockDiag W2 W2b) (hb2 : IsTwice b2 b2b)
    (xx : Fin (I + I) → EReal) (o : Fin O) :
    mlpRow xx W1b b1b W2b b2b (Fin.natAdd O o) = mlpRow (fun k => xx (Fin.natAdd I k)) W1 b1 W2 b2 o := by
  unfold mlpRow
  rw [hb2.hi, Fin.sum_univ_add]
  simp only [hW2.ur, hW2.lr, mul_zero, Finset.sum_const_zero, zero_add, hb1.hi, sum_right hW1]
end

end Cert.BlockDiagonal

end
-- ==== Proof.Packed.lean ====
/-
  The windows' arrays, read at an index.

  * Packed row `P` holds rows `2P` and `2P + 1` side by side: its entry `k` is row `2P + k / 64`, entry `k % 64`.
  * Each bias array is the bias twice.
  * Each weight array is block diagonal, `[[W, 0], [0, W]]`: the two writes of `W` land on the two diagonal blocks
    and leave the zeros elsewhere.
-/
import proofs.«150543_j15152644620825_2_alg».proof.Proof.ArraysRows
import proofs.«150543_j15152644620825_2_alg».proof.Proof.ArraysWeights
import proofs.«150543_j15152644620825_2_alg».proof.Proof.LibWindowScatter
import proofs.«150543_j15152644620825_2_alg».proof.Proof.BlockDiagonal
import Idealize.ShloMosaic.Lib.ValueIdx
import Idealize.ShloMosaic.Lib.Pipeline.Value
import Idealize.ShloMosaic.PureOps.Ideal.Laws

noncomputable section

namespace Cert.KernelIdeal.Packed

open Idealize.ShloMosaic Idealize.ShloMosaic.TcCoe Idealize.SL.Sem Idealize.ShloMosaic.ValueIdx
open Cert.KernelIdeal Cert.KernelIdeal.Gen Cert.KernelIdeal.Args Cert.KernelIdeal.Arrays
open Cert.BlockDiagonal Cert.LibWindowScatter

variable (m : (ℓ : Loc nD τ sig) → Buf (Elt Ideal) ℓ) (c : Dev nD)

/-! ## The rows -/

/-- Entry `k` of packed row `P` is entry `k % 64` of row `2P + k / 64`. -/
theorem rows_packed (P : Fin 524288) (k : Fin 128) :
    (V m c main_v48 : S524288x128.Idx → EReal) (ix2 P k)
      = rows m c (ix2 (⟨2 * P.val + k.val / 64, by have := P.isLt; have := k.isLt; omega⟩ : Fin 1048576)
          (⟨k.val % 64, by omega⟩ : Fin 64)) := by
  rw [V48_eq]
  refine shapeCast_apply _ _ _ _ ?_
  rw [Shape.rowMajor_val_two, Shape.rowMajor_val_two]
  show (2 * P.val + k.val / 64) * 64 + k.val % 64 = P.val * 128 + k.val
  omega

/-! ## The biases -/

/-- The first bias array is the first bias twice. -/
theorem bias1_twice : IsTwice (H := 128) (fun j => bias1 m c (ix1 j)) (fun j => (V m c main_v58 : S256.Idx → EReal) (ix1 j)) where
  lo j := by
    show (V m c main_v58 : S256.Idx → EReal) (ix1 (Fin.castAdd 128 j)) = _
    rw [V58_eq]
    exact concatenate_pair_apply_left (t := S256) (s₁ := S128) (s₂ := S128) (0 : Fin 1) (bias1 m c) (bias1 m c)
      Facts₀.concatenates_S128_S128_S256_d0 (ix1 (Fin.castAdd 128 j)) rfl (ix1 j) (fun b => by match b with | ⟨0, _⟩ => rfl)
  hi j := by
    show (V m c main_v58 : S256.Idx → EReal) (ix1 (Fin.natAdd 128 j)) = _
    rw [V58_eq]
    exact concatenate_pair_apply_right (t := S256) (s₁ := S128) (s₂ := S128) (0 : Fin 1) (bias1 m c) (bias1 m c)
      Facts₀.concatenates_S128_S128_S256_d0 (ix1 (Fin.natAdd 128 j)) rfl rfl (ix1 j)
      (fun b hb => by match b with | ⟨0, _⟩ => exact absurd rfl hb)
      (Nat.add_comm j.val 128)

/-- The second bias array is the second bias twice. -/
theorem bias2_twice : IsTwice (H := 64) (fun j => bias2 m c (ix1 j)) (fun j => (V m c main_v68 : S128.Idx → EReal) (ix1 j)) where
  lo j := by
    show (V m c main_v68 : S128.Idx → EReal) (ix1 (Fin.castAdd 64 j)) = _
    rw [V68_eq]
    exact concatenate_pair_apply_left (t := S128) (s₁ := S64) (s₂ := S64) (0 : Fin 1) (bias2 m c) (bias2 m c)
      Facts₀.concatenates_S64_S64_S128_d0 (ix1 (Fin.castAdd 64 j)) rfl (ix1 j) (fun b => by match b with | ⟨0, _⟩ => rfl)
  hi j := by
    show (V m c main_v68 : S128.Idx → EReal) (ix1 (Fin.natAdd 64 j)) = _
    rw [V68_eq]
    exact concatenate_pair_apply_right (t := S128) (s₁ := S64) (s₂ := S64) (0 : Fin 1) (bias2 m c) (bias2 m c)
      Facts₀.concatenates_S64_S64_S128_d0 (ix1 (Fin.natAdd 64 j)) rfl rfl (ix1 j)
      (fun b hb => by match b with | ⟨0, _⟩ => exact absurd rfl hb)
      (Nat.add_comm j.val 64)

/-! ## The weights -/

/-- An array of zeros reads zero. -/
theorem zeros_apply {s : Shape} (h : S_.BroadcastsInDim s ![]) (i : s.Idx) :
    broadcastInDim s ![] h (constant (F := Ideal) S_ .f32 0x00000000#32) i = (0 : EReal) := Ideal.ofBits_zero_f32

/-- The index vector's two components. -/
theorem corner_fst (r k : BitVec 32) : corner r k (ix1 (0 : Fin 2)) = r := rfl
theorem corner_snd (r k : BitVec 32) : corner r k (ix1 (1 : Fin 2)) = k := rfl

theorem c00_fst : (corner 0#32 0#32 (ix1 (0 : Fin 2))).toInt = ((0 : ℕ) : ℤ) := by rw [corner_fst]; decide
theorem c00_snd : (corner 0#32 0#32 (ix1 (1 : Fin 2))).toInt = ((0 : ℕ) : ℤ) := by rw [corner_snd]; decide
theorem c1_fst : (corner 64#32 128#32 (ix1 (0 : Fin 2))).toInt = ((64 : ℕ) : ℤ) := by rw [corner_fst]; decide
theorem c1_snd : (corner 64#32 128#32 (ix1 (1 : Fin 2))).toInt = ((128 : ℕ) : ℤ) := by rw [corner_snd]; decide
theorem c2_fst : (corner 128#32 64#32 (ix1 (0 : Fin 2))).toInt = ((128 : ℕ) : ℤ) := by rw [corner_fst]; decide
theorem c2_snd : (corner 128#32 64#32 (ix1 (1 : Fin 2))).toInt = ((64 : ℕ) : ℤ) := by rw [corner_snd]; decide

/-- The two scatters' dimension numbers are a window scatter's. -/
theorem hscat1 : scatter_S128x256_S2_S64x128_01_n_01_0
    = windowScatter 128 256 64 128 Facts₀.scatter_S128x256_S2_S64x128_01_n_01_0_wf := rfl
theorem hscat2 : scatter_S256x128_S2_S128x64_01_n_01_0
    = windowScatter 256 128 128 64 Facts₀.scatter_S256x128_S2_S128x64_01_n_01_0_wf := rfl

/-- THE FIRST WEIGHT ARRAY is `[[W1, 0], [0, W1]]` of the first layer's effective weights. -/
theorem W1_blocks : IsBlockDiag (I := 64) (H := 128) (fun k j => W1e m c (ix2 k j))
    (fun k j => (V m c main_v57 : S128x256.Idx → EReal) (ix2 k j)) where
  ul k j := by
    have hk := k.isLt; have hj := j.isLt
    show (V m c main_v57 : S128x256.Idx → EReal) (ix2 (Fin.castAdd 64 k) (Fin.castAdd 128 j)) = W1e m c (ix2 k j)
    rw [V57_eq, hscat1]
    refine (windowScatter_outside _ _ 64 128 c1_fst c1_snd (by decide) (by decide) _ _ (Fin.castAdd 64 k) (Fin.castAdd 128 j)
      (by simp only [Fin.coe_castAdd]; omega)).trans ?_
    exact windowScatter_inside _ _ 0 0 c00_fst c00_snd (by decide) (by decide) _ _ k j (Fin.castAdd 64 k) (Fin.castAdd 128 j)
      (by simp only [Fin.coe_castAdd]; omega) (by simp only [Fin.coe_castAdd]; omega)
  ur k j := by
    have hk := k.isLt; have hj := j.isLt
    show (V m c main_v57 : S128x256.Idx → EReal) (ix2 (Fin.castAdd 64 k) (Fin.natAdd 128 j)) = (0 : EReal)
    rw [V57_eq, hscat1]
    refine (windowScatter_outside _ _ 64 128 c1_fst c1_snd (by decide) (by decide) _ _ (Fin.castAdd 64 k) (Fin.natAdd 128 j)
      (by simp only [Fin.coe_castAdd, Fin.coe_natAdd]; omega)).trans ?_
    refine (windowScatter_outside _ _ 0 0 c00_fst c00_snd (by decide) (by decide) _ _ (Fin.castAdd 64 k) (Fin.natAdd 128 j)
      (by simp only [Fin.coe_castAdd, Fin.coe_natAdd]; omega)).trans ?_
    exact zeros_apply _ _
  ll k j := by
    have hk := k.isLt; have hj := j.isLt
    show (V m c main_v57 : S128x256.Idx → EReal) (ix2 (Fin.natAdd 64 k) (Fin.castAdd 128 j)) = (0 : EReal)
    rw [V57_eq, hscat1]
    refine (windowScatter_outside _ _ 64 128 c1_fst c1_snd (by decide) (by decide) _ _ (Fin.natAdd 64 k) (Fin.castAdd 128 j)
      (by simp only [Fin.coe_castAdd, Fin.coe_natAdd]; omega)).trans ?_
    refine (windowScatter_outside _ _ 0 0 c00_fst c00_snd (by decide) (by decide) _ _ (Fin.natAdd 64 k) (Fin.castAdd 128 j)
      (by simp only [Fin.coe_castAdd, Fin.coe_natAdd]; omega)).trans ?_
    exact zeros_apply _ _
  lr k j := by
    have hk := k.isLt; have hj := j.isLt
    show (V m c main_v57 : S128x256.Idx → EReal) (ix2 (Fin.natAdd 64 k) (Fin.natAdd 128 j)) = W1e m c (ix2 k j)
    rw [V57_eq, hscat1]
    exact windowScatter_inside _ _ 64 128 c1_fst c1_snd (by decide) (by decide) _ _ k j (Fin.natAdd 64 k) (Fin.natAdd 128 j)
      (by simp only [Fin.coe_natAdd]) (by simp only [Fin.coe_natAdd])

/-- THE SECOND WEIGHT ARRAY is `[[W2, 0], [0, W2]]` of the second layer's effective weights. -/
theorem W2_blocks : IsBlockDiag (I := 128) (H := 64) (fun k j => W2e m c (ix2 k j))
    (fun k j => (V m c main_v67 : S256x128.Idx → EReal) (ix2 k j)) where
  ul k j := by
    have hk := k.isLt; have hj := j.isLt
    show (V m c main_v67 : S256x128.Idx → EReal) (ix2 (Fin.castAdd 128 k) (Fin.castAdd 64 j)) = W2e m c (ix2 k j)
    rw [V67_eq, hscat2]
    refine (windowScatter_outside _ _ 128 64 c2_fst c2_snd (by decide) (by decide) _ _ (Fin.castAdd 128 k) (Fin.castAdd 64 j)
      (by simp only [Fin.coe_castAdd]; omega)).trans ?_
    exact windowScatter_inside _ _ 0 0 c00_fst c00_snd (by decide) (by decide) _ _ k j (Fin.castAdd 128 k) (Fin.castAdd 64 j)
      (by simp only [Fin.coe_castAdd]; omega) (by simp only [Fin.coe_castAdd]; omega)
  ur k j := by
    have hk := k.isLt; have hj := j.isLt
    show (V m c main_v67 : S256x128.Idx → EReal) (ix2 (Fin.castAdd 128 k) (Fin.natAdd 64 j)) = (0 : EReal)
    rw [V67_eq, hscat2]
    refine (windowScatter_outside _ _ 128 64 c2_fst c2_snd (by decide) (by decide) _ _ (Fin.castAdd 128 k) (Fin.natAdd 64 j)
      (by simp only [Fin.coe_castAdd, Fin.coe_natAdd]; omega)).trans ?_
    refine (windowScatter_outside _ _ 0 0 c00_fst c00_snd (by decide) (by decide) _ _ (Fin.castAdd 128 k) (Fin.natAdd 64 j)
      (by simp only [Fin.coe_castAdd, Fin.coe_natAdd]; omega)).trans ?_
    exact zeros_apply _ _
  ll k j := by
    have hk := k.isLt; have hj := j.isLt
    show (V m c main_v67 : S256x128.Idx → EReal) (ix2 (Fin.natAdd 128 k) (Fin.castAdd 64 j)) = (0 : EReal)
    rw [V67_eq, hscat2]
    refine (windowScatter_outside _ _ 128 64 c2_fst c2_snd (by decide) (by decide) _ _ (Fin.natAdd 128 k) (Fin.castAdd 64 j)
      (by simp only [Fin.coe_castAdd, Fin.coe_natAdd]; omega)).trans ?_
    refine (windowScatter_outside _ _ 0 0 c00_fst c00_snd (by decide) (by decide) _ _ (Fin.natAdd 128 k) (Fin.castAdd 64 j)
      (by simp only [Fin.coe_castAdd, Fin.coe_natAdd]; omega)).trans ?_
    exact zeros_apply _ _
  lr k j := by
    have hk := k.isLt; have hj := j.isLt
    show (V m c main_v67 : S256x128.Idx → EReal) (ix2 (Fin.natAdd 128 k) (Fin.natAdd 64 j)) = W2e m c (ix2 k j)
    rw [V67_eq, hscat2]
    exact windowScatter_inside _ _ 128 64 c2_fst c2_snd (by decide) (by decide) _ _ k j (Fin.natAdd 128 k) (Fin.natAdd 64 j)
      (by simp only [Fin.coe_natAdd]) (by simp only [Fin.coe_natAdd])

end Cert.KernelIdeal.Packed

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.Body.lean ====
/-
  The kernel body's one store, read at an index.

  The body loads a block of packed rows `x0`, the packed weights `x1`, `x3` and biases `x2`, `x4`, and stores
  `σ (σ (x0 · x1 + x2) · x3 + x4)`, the products being matrix products into a zero accumulator and the changes of
  float format the identity on the extended reals. At row `y` and column `c` of the block that is the two-layer
  perceptron of row `y` of `x0`, read at output `c`.
-/
import proofs.«150543_j15152644620825_2_alg».proof.Proof.Gen.KernelIdeal.Skeleton
import proofs.«150543_j15152644620825_2_alg».proof.Proof.LibPlainDot
import proofs.«150543_j15152644620825_2_alg».proof.Proof.BlockDiagonal
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Idealize.ShloMosaic Idealize.ShloMosaic.ValueIdx Cert.KernelIdeal Cert.KernelIdeal.Gen Cert.BlockDiagonal

/-- A length-`b` vector viewed as one row and repeated down `a` rows reads its entry `q` at `(p, q)`. -/
theorem row_spread {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ v h1) h2 (ix2 p q) = v (ix1 q) := by
  rw [broadcastTo_1b_ab_apply, shapeCast_a_1a_apply]

/-- THE STORED BLOCK AT `(y, c)`: the perceptron of row `y` of the loaded rows, with the loaded weights and biases. -/
theorem pay1_apply (x0 : Vec Ideal S8192x128 .f32) (x1 : Vec Ideal S128x256 .f32) (x2 : Vec Ideal S256 .f32)
    (x3 : Vec Ideal S256x128 .f32) (x4 : Vec Ideal S128 .f32) (y : Fin 8192) (c : Fin 128) :
    k0_pay1 (F := Ideal) x0 x1 x2 x3 x4 (ix2 y c)
      = mlpRow (I := 128) (H := 256) (O := 128) (fun k => x0 (ix2 y k)) (fun k j => x1 (ix2 k j)) (fun j => x2 (ix1 j))
          (fun j o => x3 (ix2 j o)) (fun o => x4 (ix1 o)) c := by
  have hdot1 : dot_S8192x128_S128x256_S8192x256_1_0_0_1_n_n
      = LibPlainDot.plainDot 8192 128 256 Facts₀.dot_S8192x128_S128x256_S8192x256_1_0_0_1_n_n_wf := rfl
  have hdot2 : dot_S8192x256_S256x128_S8192x128_1_0_0_1_n_n
      = LibPlainDot.plainDot 8192 256 128 Facts₀.dot_S8192x256_S256x128_S8192x128_1_0_0_1_n_n_wf := rfl
  unfold k0_pay1 mlpRow
  simp only [shapeCast_self]
  -- the outer layer: σ of (the second product at (y, c) plus the second bias at c)
  show Ideal.logistic (FloatOps.matmul (F := Ideal) dot_S8192x256_S256x128_S8192x128_1_0_0_1_n_n none _ _ (constant (F := Ideal) S8192x128 .f32 0x00000000#32) (ix2 y c)
      + broadcastTo S8192x128 (shapeCast S1x128 x4 shapeCasts_S128_S1x128) broadcasts_S1x128_S8192x128 (ix2 y c)) = _
  rw [hdot2, LibPlainDot.matmul_zero_apply, row_spread]
  refine congrArg Ideal.logistic (congrArg (· + x4 (ix1 c)) (Finset.sum_congr rfl fun j _ => ?_))
  -- the inner layer at hidden unit j: σ of (the first product at (y, j) plus the first bias at j)
  show Ideal.logistic (FloatOps.matmul (F := Ideal) dot_S8192x128_S128x256_S8192x256_1_0_0_1_n_n none _ _ (constant (F := Ideal) S8192x256 .f32 0x00000000#32) (ix2 y j)
      + broadcastTo S8192x256 (shapeCast S1x256 x2 shapeCasts_S256_S1x256) broadcasts_S1x256_S8192x256 (ix2 y j)) * x3 (ix2 j c) = _
  rw [hdot1, LibPlainDot.matmul_zero_apply, row_spread]
  rfl

end Cert.KernelIdeal.Body

end
-- ==== Proof.KValue.lean ====
/-
  The kernel's result.

  The specification: the result at `(r, o)` is the two-layer perceptron of row `r` with the effective weights,
  read at output `o` (`outRef`). The region's output array holds it two rows to a packed row (`outPacked`):
  grid point `t` computes packed rows `8192 t … 8192 t + 8191`, each the perceptron with block-diagonal weights of
  a packed row, whose left and right halves are the perceptrons of the two rows it packs. The blocks tile the
  array, and the reshape after the region reads packed row `r / 2`, half `r % 2`, back as row `r`.
-/
import proofs.«150543_j15152644620825_2_alg».proof.Proof.Packed
import proofs.«150543_j15152644620825_2_alg».proof.Proof.Body
import Idealize.ShloMosaic.Lib.Pipeline.Value
import Idealize.ShloMosaic.Lib.StableHlo.Run

noncomputable section

namespace Cert.KernelIdeal.KValue

open Idealize.ShloMosaic Idealize.ShloMosaic.TcCoe Idealize.SL.Sem Idealize.ShloMosaic.ValueIdx Idealize.ShloMosaic.StableHlo
open Cert.KernelIdeal Cert.KernelIdeal.Gen Cert.KernelIdeal.Args Cert.KernelIdeal.Arrays Cert.KernelIdeal.Packed
open Cert.BlockDiagonal

variable (m : (ℓ : Loc nD τ sig) → Buf (Elt Ideal) ℓ) (ρ : Dev nD → PrngReg) (c : Dev nD)

/-! ## The specification -/

/-- THE RESULT: at `(r, o)` the two-layer perceptron of row `r`, read at output `o`. -/
def outRef : S1048576x64.Idx → EReal := fun i =>
  mlpRow (I := 64) (H := 128) (O := 64) (fun k => rows m c (ix2 (i 0) k)) (fun k j => W1e m c (ix2 k j))
    (fun j => bias1 m c (ix1 j)) (fun j o => W2e m c (ix2 j o)) (fun o => bias2 m c (ix1 o)) (i 1)

/-- The result two rows to a packed row: entry `k` of packed row `P` is entry `k % 64` of row `2P + k / 64`. -/
def outPacked : S524288x128.Idx → EReal := fun i =>
  outRef m c (ix2 (⟨2 * (i 0).val + (i 1).val / 64, by
      have h0 : (i 0).val < 524288 := (i 0).isLt
      have h1 : (i 1).val < 128 := (i 1).isLt
      omega⟩ : Fin 1048576)
    (⟨(i 1).val % 64, by omega⟩ : Fin 64))

theorem ix2_congr {n0 n1 : ℕ} {a a' : Fin n0} {b b' : Fin n1} (ha : a.val = a'.val) (hb : b.val = b'.val) :
    ix2 a b = ix2 a' b' := by rw [Fin.ext ha, Fin.ext hb]

/-! ## One packed row -/

/-- The result at `(r, o)`, spelt out. -/
theorem outRef_ix2 (r : Fin 1048576) (o : Fin 64) :
    outRef m c (ix2 r o) = mlpRow (I := 64) (H := 128) (O := 64) (fun k => rows m c (ix2 r k)) (fun k j => W1e m c (ix2 k j))
      (fun j => bias1 m c (ix1 j)) (fun j o => W2e m c (ix2 j o)) (fun o => bias2 m c (ix1 o)) o := rfl

/-- The packed result at `(P, q)` is the result at row `2P + q / 64`, output `q % 64`. -/
theorem outPacked_ix2 (P : Fin 524288) (q : Fin 128) :
    outPacked m c (ix2 P q) = outRef m c (ix2 (⟨2 * P.val + q.val / 64, by have := P.isLt; have := q.isLt; omega⟩ : Fin 1048576)
      (⟨q.val % 64, by omega⟩ : Fin 64)) := rfl

/-- The perceptron depends on the row and the output only through their values. -/
theorem mlpRow_congr {I H O : ℕ} {x x' : Fin I → EReal} (W1 : Fin I → Fin H → EReal) (b1 : Fin H → EReal)
    (W2 : Fin H → Fin O → EReal) (b2 : Fin O → EReal) {o o' : Fin O} (hx : ∀ k, x k = x' k) (ho : o = o') :
    mlpRow x W1 b1 W2 b2 o = mlpRow x' W1 b1 W2 b2 o' := by
  rw [show x = x' from funext hx, ho]

set_option maxHeartbeats 1000000 in
/-- THE PACKED PERCEPTRON OF A PACKED ROW is the packed result: its left half the perceptron of row `2P`, its
    right half that of row `2P + 1`. -/
theorem block_value (P : Fin 524288) (q : Fin 128) :
    mlpRow (I := 64 + 64) (H := 128 + 128) (O := 64 + 64)
        (fun k => (V m c main_v48 : S524288x128.Idx → EReal) (ix2 P k))
        (fun k j => (V m c main_v57 : S128x256.Idx → EReal) (ix2 k j))
        (fun j => (V m c main_v58 : S256.Idx → EReal) (ix1 j))
        (fun j o => (V m c main_v67 : S256x128.Idx → EReal) (ix2 j o))
        (fun o => (V m c main_v68 : S128.Idx → EReal) (ix1 o)) q
      = outPacked m c (ix2 P q) := by
  have hP := P.isLt
  rw [outPacked_ix2, outRef_ix2]
  rcases Nat.lt_or_ge q.val 64 with h | h
  · obtain ⟨o, rfl⟩ : ∃ o : Fin 64, q = Fin.castAdd 64 o := ⟨⟨q.val, h⟩, Fin.ext rfl⟩
    have ho := o.isLt
    refine (packed_left (W1_blocks m c) (bias1_twice m c) (W2_blocks m c) (bias2_twice m c) _ o).trans ?_
    refine mlpRow_congr _ _ _ _ (fun k => ?_) (Fin.ext (by simp only [Fin.coe_castAdd]; omega))
    have hk := k.isLt
    show (V m c main_v48 : S524288x128.Idx → EReal) (ix2 P (Fin.castAdd 64 k)) = _
    rw [rows_packed]
    exact congrArg (rows m c) (ix2_congr (by simp only [Fin.coe_castAdd]; omega) (by simp only [Fin.coe_castAdd]; omega))
  · have hq := q.isLt
    obtain ⟨o, rfl⟩ : ∃ o : Fin 64, q = Fin.natAdd 64 o := ⟨⟨q.val - 64, by omega⟩, Fin.ext (by simp only [Fin.coe_natAdd]; omega)⟩
    have ho := o.isLt
    refine (packed_right (W1_blocks m c) (bias1_twice m c) (W2_blocks m c) (bias2_twice m c) _ o).trans ?_
    refine mlpRow_congr _ _ _ _ (fun k => ?_) (Fin.ext (by simp only [Fin.coe_natAdd]; omega))
    have hk := k.isLt
    show (V m c main_v48 : S524288x128.Idx → EReal) (ix2 P (Fin.natAdd 64 k)) = _
    rw [rows_packed]
    exact congrArg (rows m c) (ix2_congr (by simp only [Fin.coe_natAdd]; omega) (by simp only [Fin.coe_natAdd]; omega))

/-! ## What a grid point writes back -/

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the row window and the output window are at block `t` of their
    first axis, every other window at block zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

theorem point_lt (t : Fin cfg0.N) : t.val < 64 := lt_of_lt_of_eq t.isLt N_0

/-- The row window's block at point `t`: packed rows `8192 t …`. -/
theorem blk0 (t : Fin cfg0.N) (p : Fin 8192) (k : Fin 128) :
    iblk m c 0 t (ix2 p k) = (V m c main_v48 : S524288x128.Idx → EReal)
      (ix2 (⟨8192 * t.val + p.val, by have := point_lt t; have := p.isLt; omega⟩ : Fin 524288) k) := by
  obtain ⟨e0, e1, -⟩ := idx_facts t
  show (V m c main_v48 : S524288x128.Idx → EReal) (((cfg0.win 0).blk t).view.emb (ix2 p k)) = _
  refine congrArg _ (funext fun a => Fin.ext ?_)
  match a with
  | ⟨0, _⟩ => show win0_0.index t (0 : Fin 2) * 8192 + 1 * p.val = 8192 * t.val + p.val; rw [e0]; omega
  | ⟨1, _⟩ => show win0_0.index t (1 : Fin 2) * 128 + 1 * k.val = k.val; rw [e1]; omega

/-- The first weight window's block is its whole array. -/
theorem blk1 (t : Fin cfg0.N) (k : Fin 128) (j : Fin 256) :
    iblk m c 1 t (ix2 k j) = (V m c main_v57 : S128x256.Idx → EReal) (ix2 k j) := by
  obtain ⟨-, -, e2, e3, -⟩ := idx_facts t
  show (V m c main_v57 : S128x256.Idx → EReal) (((cfg0.win 1).blk t).view.emb (ix2 k j)) = _
  refine congrArg _ (funext fun a => Fin.ext ?_)
  match a with
  | ⟨0, _⟩ => show win0_1.index t (0 : Fin 2) * 128 + 1 * k.val = k.val; rw [e2]; omega
  | ⟨1, _⟩ => show win0_1.index t (1 : Fin 2) * 256 + 1 * j.val = j.val; rw [e3]; omega

/-- The first bias window's block is its whole array. -/
theorem blk2 (t : Fin cfg0.N) (j : Fin 256) :
    iblk m c 2 t (ix1 j) = (V m c main_v58 : S256.Idx → EReal) (ix1 j) := by
  obtain ⟨-, -, -, -, e4, -⟩ := idx_facts t
  show (V m c main_v58 : S256.Idx → EReal) (((cfg0.win 2).blk t).view.emb (ix1 j)) = _
  refine congrArg _ (funext fun a => Fin.ext ?_)
  match a with
  | ⟨0, _⟩ => show win0_2.index t (0 : Fin 1) * 256 + 1 * j.val = j.val; rw [e4]; omega

/-- The second weight window's block is its whole array. -/
theorem blk3 (t : Fin cfg0.N) (j : Fin 256) (o : Fin 128) :
    iblk m c 3 t (ix2 j o) = (V m c main_v67 : S256x128.Idx → EReal) (ix2 j o) := by
  obtain ⟨-, -, -, -, -, e5, e6, -⟩ := idx_facts t
  show (V m c main_v67 : S256x128.Idx → EReal) (((cfg0.win 3).blk t).view.emb (ix2 j o)) = _
  refine congrArg _ (funext fun a => Fin.ext ?_)
  match a with
  | ⟨0, _⟩ => show win0_3.index t (0 : Fin 2) * 256 + 1 * j.val = j.val; rw [e5]; omega
  | ⟨1, _⟩ => show win0_3.index t (1 : Fin 2) * 128 + 1 * o.val = o.val; rw [e6]; omega

/-- The second bias window's block is its whole array. -/
theorem blk4 (t : Fin cfg0.N) (o : Fin 128) :
    iblk m c 4 t (ix1 o) = (V m c main_v68 : S128.Idx → EReal) (ix1 o) := by
  obtain ⟨-, -, -, -, -, -, -, e7, -⟩ := idx_facts t
  show (V m c main_v68 : S128.Idx → EReal) (((cfg0.win 4).blk t).view.emb (ix1 o)) = _
  refine congrArg _ (funext fun a => Fin.ext ?_)
  match a with
  | ⟨0, _⟩ => show win0_4.index t (0 : Fin 1) * 128 + 1 * o.val = o.val; rw [e7]; omega

/-- WHAT POINT `t` WRITES BACK is block `t` of the packed result. -/
theorem flushed_eq (t : Fin cfg0.N) :
    (dats m 0 c).flushed 5 t = ((cfg0.win 5).blk t).view.read (Elt Ideal) (outPacked m c) := by
  show (cfg0.win 5).cut (grid0.coords t) ((dats m 0 c).after 5 t) = _
  rw [after0_5]
  unfold out0_5
  rw [View.canon_unit_zero hz2]
  simp only [View.ld_unit_zero (S := S8192x128) hz2, View.ld_unit_zero (S := S128x256) hz2, View.ld_unit_zero (S := S256) hz1,
    View.ld_unit_zero (S := S256x128) hz2, View.ld_unit_zero (S := S128) hz1]
  funext y
  obtain ⟨p, q, rfl⟩ : ∃ (p : Fin 8192) (q : Fin 128), y = ix2 p q := ⟨y 0, y 1, eq_ix2 y⟩
  have ht := point_lt t
  have hp := p.isLt
  obtain ⟨-, -, -, -, -, -, -, -, e8, e9⟩ := idx_facts t
  show k0_pay1 (F := Ideal) (iblk m c 0 t) (iblk m c 1 t) (iblk m c 2 t) (iblk m c 3 t) (iblk m c 4 t) (ix2 p q)
    = outPacked m c (((cfg0.win 5).blk t).view.emb (ix2 p q))
  have eemb : ((cfg0.win 5).blk t).view.emb (ix2 p q)
      = ix2 (⟨8192 * t.val + p.val, by omega⟩ : Fin 524288) q := funext fun a => Fin.ext (by
    match a with
    | ⟨0, _⟩ => show win0_5.index t (0 : Fin 2) * 8192 + 1 * p.val = 8192 * t.val + p.val; rw [e8]; omega
    | ⟨1, _⟩ => show win0_5.index t (1 : Fin 2) * 128 + 1 * q.val = q.val; rw [e9]; omega)
  rw [eemb]
  refine (Body.pay1_apply (iblk m c 0 t) (iblk m c 1 t) (iblk m c 2 t) (iblk m c 3 t) (iblk m c 4 t) p q).trans ?_
  have e0 : (fun k : Fin 128 => iblk m c 0 t (ix2 p k))
      = fun k : Fin 128 => (V m c main_v48 : S524288x128.Idx → EReal) (ix2 (⟨8192 * t.val + p.val, by omega⟩ : Fin 524288) k) :=
    funext fun k => blk0 m c t p k
  have e1 : (fun (k : Fin 128) (j : Fin 256) => iblk m c 1 t (ix2 k j))
      = fun (k : Fin 128) (j : Fin 256) => (V m c main_v57 : S128x256.Idx → EReal) (ix2 k j) :=
    funext fun k => funext fun j => blk1 m c t k j
  have e2 : (fun j : Fin 256 => iblk m c 2 t (ix1 j)) = fun j : Fin 256 => (V m c main_v58 : S256.Idx → EReal) (ix1 j) :=
    funext fun j => blk2 m c t j
  have e3 : (fun (j : Fin 256) (o : Fin 128) => iblk m c 3 t (ix2 j o))
      = fun (j : Fin 256) (o : Fin 128) => (V m c main_v67 : S256x128.Idx → EReal) (ix2 j o) :=
    funext fun j => funext fun o => blk3 m c t j o
  have e4 : (fun o : Fin 128 => iblk m c 4 t (ix1 o)) = fun o : Fin 128 => (V m c main_v68 : S128.Idx → EReal) (ix1 o) :=
    funext fun o => blk4 m c t o
  rw [e0, e1, e2, e3, e4]
  exact block_value m c _ q

/-! ## The array after the region -/

/-- An index of the output array is in point `t`'s block iff each coordinate is in the block's range on its axis. -/
theorem mem_blk (t : Fin cfg0.N) (i : S524288x128.Idx) :
    i ∈ ((cfg0.win 5).blk t).view.set ↔ ∀ a : Fin 2, win0_5.index t a * S8192x128.size a ≤ (i a).val
      ∧ (i a).val < win0_5.index t a * S8192x128.size a + S8192x128.size a := by
  show i ∈ ((View.whole main_v69).slice (win0_5.rect t)).set ↔ _
  rw [View.set_slice_whole, Rect.mem_set_unit]
  exact Iff.rfl

/-- Every packed row is in some point's block: packed row `P` in point `P / 8192`'s. -/
theorem cover (i : S524288x128.Idx) :
    ∃ t : Fin cfg0.N, (cfg0.win 5).flush t = true ∧ i ∈ ((cfg0.win 5).blk t).view.set := by
  have h0 : (i 0).val < 524288 := (i 0).isLt
  have h1 : (i 1).val < 128 := (i 1).isLt
  have hN : (i 0).val / 8192 < cfg0.N := lt_of_lt_of_eq (by omega : (i 0).val / 8192 < 64) N_0.symm
  refine ⟨⟨(i 0).val / 8192, hN⟩, flush0_5 _, ?_⟩
  rw [mem_blk]
  obtain ⟨-, -, -, -, -, -, -, -, e8, e9⟩ := idx_facts ⟨(i 0).val / 8192, hN⟩
  intro a
  match a with
  | ⟨0, _⟩ =>
    show win0_5.index ⟨(i 0).val / 8192, hN⟩ (0 : Fin 2) * 8192 ≤ (i 0).val
      ∧ (i 0).val < win0_5.index ⟨(i 0).val / 8192, hN⟩ (0 : Fin 2) * 8192 + 8192
    rw [e8]; show (i 0).val / 8192 * 8192 ≤ (i 0).val ∧ (i 0).val < (i 0).val / 8192 * 8192 + 8192; omega
  | ⟨1, _⟩ =>
    show win0_5.index ⟨(i 0).val / 8192, hN⟩ (1 : Fin 2) * 128 ≤ (i 1).val
      ∧ (i 1).val < win0_5.index ⟨(i 0).val / 8192, hN⟩ (1 : Fin 2) * 128 + 128
    rw [e9]; omega

/-- THE OUTPUT ARRAY after the region is the packed result. -/
theorem final : (dats m 0 c).arrAt 5 cfg0.N = outPacked m c :=
  (dats m 0 c).arrAt_eq_of_cover 5 (outPacked m c) (fun t _ => flushed_eq m c t) (cover)

/-! ## The reshape after the region, and the run -/

set_option maxHeartbeats 4000000 in
/-- THE RESULT of the program: the reshape reads packed row `r / 2`, half `r % 2`, back as row `r`. -/
theorem tail_eq : Pipeline.afterTail₀ cfgs (dats m) 0 (V0 m) [hostOps1] c main_v70 = outRef m c := by
  unfold Pipeline.afterTail₀
  show StableHlo.after hostOps1 _ (Proc.devRef .tc main_v70) = _
  after_results
  funext i
  obtain ⟨r, o, rfl⟩ : ∃ (r : Fin 1048576) (o : Fin 64), i = ix2 r o := ⟨i 0, i 1, eq_ix2 i⟩
  have hr := r.isLt
  have ho := o.isLt
  show shapeCast S1048576x64 (Pipeline.withArrays (cfgs 0).spec c (V0 m c) (fun w => (dats m 0 c).arrAt w (cfgs 0).N)
      (Proc.devRef .tc main_v69)) Facts₀.shapeCasts_S524288x128_S1048576x64 (ix2 r o) = outRef m c (ix2 r o)
  rw [show Pipeline.withArrays (cfgs 0).spec c (V0 m c) (fun w => (dats m 0 c).arrAt w (cfgs 0).N) (Proc.devRef .tc main_v69)
      = outPacked m c from (Pipeline.withArrays_arr spec0 launch0.win.arr_inj c _ _ 5).trans (final m c)]
  refine (shapeCast_apply (outPacked m c) Facts₀.shapeCasts_S524288x128_S1048576x64 (ix2 r o)
    (ix2 (⟨r.val / 2, by omega⟩ : Fin 524288) (⟨r.val % 2 * 64 + o.val, by omega⟩ : Fin 128)) ?_).trans ?_
  · rw [Shape.rowMajor_val_two, Shape.rowMajor_val_two]
    show r.val / 2 * 128 + (r.val % 2 * 64 + o.val) = r.val * 64 + o.val
    omega
  · rw [outPacked_ix2]
    exact congrArg (outRef m c) (ix2_congr (by show 2 * (r.val / 2) + (r.val % 2 * 64 + o.val) / 64 = r.val; omega)
      (by show (r.val % 2 * 64 + o.val) % 64 = o.val; omega))

/-- THE RUN, READ: every weakly fair execution of the idealized kernel terminates with its result at the two-layer
    perceptron of every row, and its arguments as they were. -/
theorem run : θ_run defs (onTc (τ := τ) (main (F := Ideal))) ⟨m, fun _ => 0, ρ⟩ fun r => ∀ c : Dev nD,
      r.2.mem ((c.tc : Thread nD τ).loc main_v70) = outRef m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v70 (Pipeline.mem_restRefs_of main_v70 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.KValue

end
-- ==== Proof.RefValue.lean ====
/-
  The reference at an index.

  The reference multiplies the rows by the effective first-layer weights, adds the bias, applies
  `z ↦ 1 / (1 + e^(-z))`, and does the same with the second layer. On the extended reals that expression is the
  logistic function, the literal `1.0` is the number one, and a matrix product is a plain sum: the result at
  `(r, o)` is the two-layer perceptron of row `r`, read at output `o`.
-/
import proofs.«150543_j15152644620825_2_alg».proof.Proof.Gen.ReferenceIdeal.Read
import proofs.«150543_j15152644620825_2_alg».proof.Proof.BlockDiagonal
import Idealize.ShloMosaic.Lib.ValueIdx

noncomputable section

open scoped BigOperators

namespace Cert.ReferenceIdeal.RefValue

open Idealize.ShloMosaic Idealize.ShloMosaic.ValueIdx Cert.ReferenceIdeal Cert.ReferenceIdeal.Read Cert.BlockDiagonal

/-- The literal `1.0` is the number one. -/
theorem ofBits_one : Ideal.ofBits .f32 0x3F800000#32 = (1 : EReal) := by
  simp [Ideal.ofBits, Ideal.ieee, -EReal.coe_mul]; norm_num

/-- `1 / (1 + e^(-z))`, in the host's operations with the literal `1.0`, is the logistic function. -/
theorem sigma_eq (z : EReal) :
    FloatOps.hostDivf (F := Ideal) (φ := .f32) (FloatOps.ofBits .f32 0x3F800000#32)
      (FloatOps.addf (FloatOps.ofBits .f32 0x3F800000#32) (FloatOps.hostUnary .exp (FloatOps.hostNegf z))) = Ideal.logistic z := by
  simp only [Ideal.hostDivf_def, Ideal.addf_def, Ideal.hostUnary_exp_def, Ideal.hostNegf_def, Ideal.negf_def, Ideal.ofBits_def, ofBits_one]
  rfl

section
variable (x0 : (⟨S1048576x64, .f32⟩ : BufTy).Contents (Elt Ideal)) (x1 : (⟨S64x128, .f32⟩ : BufTy).Contents (Elt Ideal))
  (x2 : (⟨S128, .f32⟩ : BufTy).Contents (Elt Ideal)) (x3 : (⟨S128x64, .f32⟩ : BufTy).Contents (Elt Ideal))
  (x4 : (⟨S64, .f32⟩ : BufTy).Contents (Elt Ideal)) (x5 : (⟨S64x2, .f32⟩ : BufTy).Contents (Elt Ideal))
  (x6 : (⟨S128x2, .f32⟩ : BufTy).Contents (Elt Ideal)) (x7 : (⟨S64x2, .f32⟩ : BufTy).Contents (Elt Ideal))

/-- THE HIDDEN LAYER at `(r, j)`: the logistic of row `r` against column `j` of the effective weights, plus the bias. -/
theorem hidden_apply (r : Fin 1048576) (j : Fin 128) :
    val_main_v57 (F := Ideal) x0 x1 x2 x5 x6 (ix2 r j)
      = Ideal.logistic (∑ k : Fin 64, x0 (ix2 r k) * val_main_v30 (F := Ideal) x1 x5 x6 (ix2 k j) + x2 (ix1 j)) := by
  rw [val_main_v57_apply, val_main_v56_apply, val_main_cst_20_apply, val_main_v55_apply, val_main_v54_apply,
    val_main_cst_19_apply, val_main_v53_apply, val_main_v52_apply, val_main_v51_apply, val_main_v48_apply,
    val_main_v50_apply, val_main_v49_apply, sigma_eq]
  have e1 : ∀ k, lidx_main_v48 (ix2 r j) k = ix2 r k := fun k => funext fun a => Fin.ext (by
    match a with | ⟨0, _⟩ => rfl | ⟨1, _⟩ => rfl)
  have e2 : ∀ k, ridx_main_v48 (ix2 r j) k = ix2 k j := fun k => funext fun a => Fin.ext (by
    match a with | ⟨0, _⟩ => rfl | ⟨1, _⟩ => rfl)
  have e3 : idx_main_v49 (idx_main_v50 (ix2 r j)) = ix1 j := funext fun a => Fin.ext (by
    match a with | ⟨0, _⟩ => rfl)
  simp only [e1, e2, e3, Ideal.addf_def]

/-- THE RESULT at `(r, o)`: the two-layer perceptron of row `r`, read at output `o`. -/
theorem result_apply (r : Fin 1048576) (o : Fin 64) :
    val_main_v67 (F := Ideal) x0 x1 x2 x3 x4 x5 x6 x7 (ix2 r o)
      = mlpRow (I := 64) (H := 128) (O := 64) (fun k => x0 (ix2 r k)) (fun k j => val_main_v30 (F := Ideal) x1 x5 x6 (ix2 k j))
          (fun j => x2 (ix1 j)) (fun j o => val_main_v47 (F := Ideal) x3 x6 x7 (ix2 j o)) (fun o => x4 (ix1 o)) o := by
  rw [val_main_v67_apply, val_main_v66_apply, val_main_cst_22_apply, val_main_v65_apply, val_main_v64_apply,
    val_main_cst_21_apply, val_main_v63_apply, val_main_v62_apply, val_main_v61_apply, val_main_v58_apply,
    val_main_v60_apply, val_main_v59_apply, sigma_eq]
  have e1 : ∀ k, lidx_main_v58 (ix2 r o) k = ix2 r k := fun k => funext fun a => Fin.ext (by
    match a with | ⟨0, _⟩ => rfl | ⟨1, _⟩ => rfl)
  have e2 : ∀ k, ridx_main_v58 (ix2 r o) k = ix2 k o := fun k => funext fun a => Fin.ext (by
    match a with | ⟨0, _⟩ => rfl | ⟨1, _⟩ => rfl)
  have e3 : idx_main_v59 (idx_main_v60 (ix2 r o)) = ix1 o := funext fun a => Fin.ext (by
    match a with | ⟨0, _⟩ => rfl)
  unfold mlpRow
  simp only [e1, e2, e3, hidden_apply, Ideal.addf_def]
end

end Cert.ReferenceIdeal.RefValue

end
-- ==== Proof.lean ====
/-
  The kernel and its reference compute the same two-layer perceptron.

  Both programs first turn the weights into EFFECTIVE weights: each weight is scaled by `1 / (R + 1)`, where `R` is
  the resistance of a copper trace whose length is the Manhattan distance between the positions of the two units it
  joins and whose width grows with the clipped weight. Both do it by the same host operations, so the effective
  weights are one term on the two sides and are never opened.

  The reference then computes, for every row `x_r`, `σ (σ (x_r · W1 + b1) · W2 + b2)` with
  `σ z = 1 / (1 + e^(-z))`.

  The kernel views the rows two to a packed row (rows `2P` and `2P + 1` side by side), builds the block-diagonal
  weights `[[W1, 0], [0, W1]]` and `[[W2, 0], [0, W2]]` by writing each effective weight matrix twice into an array
  of zeros, repeats each bias twice, and for each block of 8192 packed rows computes the same expression with
  matrix products into a zero accumulator and the logistic function; a final reshape reads the packed rows back
  as rows.

  On the extended reals a change of float format is the identity, a matrix product is a plain sum, the logistic
  function is `1 / (1 + e^(-z))`, and a product with a zero entry is zero whatever the other factor is. So the
  zero blocks drop out of every sum, with no assumption on the inputs: the left half of a packed output row is the
  perceptron of row `2P`, the right half that of row `2P + 1` (Proof/BlockDiagonal.lean), and the two programs'
  results agree index by index.

  The modules: Proof/LibPlainDot.lean (a plain matrix product at an index), Proof/LibWindowScatter.lean (a whole
  update written at a constant corner, at an index), Proof/BlockDiagonal.lean (the algebra), Proof/Body.lean (the
  kernel body's store at an index), Proof/Args.lean, Proof/ArraysRows.lean, Proof/ArraysWeights.lean,
  Proof/Packed.lean (what the region finds in its windows' arrays), Proof/KValue.lean (the kernel's result),
  Proof/RefValue.lean (the reference's result).
-/
import proofs.«150543_j15152644620825_2_alg».proof.Defs
import proofs.«150543_j15152644620825_2_alg».proof.Proof.Gen.Kernel
import proofs.«150543_j15152644620825_2_alg».proof.Proof.Gen.Kernel.Skeleton
import proofs.«150543_j15152644620825_2_alg».proof.Proof.Gen.Kernel.Launch
import proofs.«150543_j15152644620825_2_alg».proof.Proof.Gen.Kernel.Points
import proofs.«150543_j15152644620825_2_alg».proof.Proof.Gen.Kernel.Frame
import proofs.«150543_j15152644620825_2_alg».proof.Proof.Gen.KernelIdeal
import proofs.«150543_j15152644620825_2_alg».proof.Proof.Gen.KernelIdeal.Skeleton
import proofs.«150543_j15152644620825_2_alg».proof.Proof.Gen.KernelIdeal.Launch
import proofs.«150543_j15152644620825_2_alg».proof.Proof.Gen.KernelIdeal.Points
import proofs.«150543_j15152644620825_2_alg».proof.Proof.Gen.KernelIdeal.Frame
import proofs.«150543_j15152644620825_2_alg».proof.Proof.Gen.ReferenceIdeal
import proofs.«150543_j15152644620825_2_alg».proof.Proof.Gen.Pre_finite_inputs
import proofs.«150543_j15152644620825_2_alg».proof.Proof.Gen.ReferenceIdeal.Run
import proofs.«150543_j15152644620825_2_alg».proof.Proof.Gen.ReferenceIdeal.Read
import proofs.«150543_j15152644620825_2_alg».proof.Proof.KValue
import proofs.«150543_j15152644620825_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs, and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the extended reals both programs end with the two-layer perceptron of every row: the kernel by its packed
    rows and block-diagonal weights, the reference directly. -/
theorem algebraic : Cert.algebraic_KernelIdeal_ReferenceIdeal := by
  intro m ρ m' ρ' _ hagree
  refine ⟨fun c => Cert.KernelIdeal.KValue.outRef m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v67_eq, h0, h1, h2, h3, h4, h5, h6, h7]
  funext i
  obtain ⟨r, o, rfl⟩ : ∃ (r : Fin 1048576) (o : Fin 64), i = ix2 r o := ⟨i 0, i 1, eq_ix2 i⟩
  exact Cert.ReferenceIdeal.RefValue.result_apply _ _ _ _ _ _ _ _ r o

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
